-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S128x1024 : Shape := ⟨2, ![128, 1024]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  reduces_S512x1024_S512 : S512x1024.Reduces [1] S512
  shapeCasts_S512_S512x1 : S512.ShapeCasts S512x1
  broadcasts_S512x1_S512x1024 : S512x1.Broadcasts S512x1024
  dot_S128x1024_S1024x1024_S128x1024_1_0_0_1_n_n_wf : DotDims.WF S128x1024 S1024x1024 S128x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S4096x1024.size a
  hwx0_4 : ∀ i : grid0.Coords, EltTy.bits .f32 = 32 ∨ (Rect.block (s := S4096x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S4096x1024.size a
  hwx0_5 : ∀ i : grid0.Coords, EltTy.bits .f32 = 32 ∨ (Rect.block (s := S4096x1024) S128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .f32 = 32 ∨ (Rect.block (s := S4096x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .f32 = 32 ∨ (Rect.block (s := S4096x1024) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S128x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S128x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S_ : Shape := ⟨0, ![]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S_, .f32⟩
  | .hbm, ⟨9, _⟩ => ⟨S1024x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S4096x1024, .f32⟩
  | .hbm, ⟨27, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x1024_S4096_d1 : S4096x1024.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.ProjRegionI.lean ====
/-
  The projection region: x·q, x·k, x·v on blocks of 128 rows.

  At grid point t the body loads rows [128 t, 128 t + 128) of x and the whole of q, k and v, and stores the
  three products of that row block into the three output blocks, each by one store covering its block. Stated
  here, at any float instance and for any contents V the region may be entered from: what each window's
  staging buffer holds before and after the body at a point, the body's triple, and the obligation the
  pipeline asks of the body at every point. The region keeps nothing between points.
-/
import proofs.«132627_j31696858644695_1_alg».proof.Proof.Gen.KernelIdeal.Launch
import proofs.«132627_j31696858644695_1_alg».proof.Proof.Gen.KernelIdeal.Skeleton
import proofs.«132627_j31696858644695_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.ProjRegion

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is
    not fetched its block index has not moved): the rows of x, -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the whole of q, -/
theorem before_q_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the whole of k, -/
theorem before_k_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- the whole of v. -/
theorem before_v_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store takes its buffer whole -/

abbrev rRows : Rect S128x1024 := Rect.unit (s := S128x1024) ![0, 0] S128x1024.size inb_S128x1024_S128x1024_0_0
abbrev rMat : Rect S1024x1024 := Rect.unit (s := S1024x1024) ![0, 0] S1024x1024.size inb_S1024x1024_S1024x1024_0_0

/-! ## What the body leaves in each output block: the product of the row block with one matrix -/

def outQ (x0 : Vec F S128x1024 .f32) (x1 : Vec F S1024x1024 .f32) : Vec F S128x1024 .f32 :=
  View.canon [⟨rRows, k0_pay1 (View.ld x0 rRows) (View.ld x1 rMat)⟩]
def outK (x0 : Vec F S128x1024 .f32) (x2 : Vec F S1024x1024 .f32) : Vec F S128x1024 .f32 :=
  View.canon [⟨rRows, k0_pay2 (View.ld x0 rRows) (View.ld x2 rMat)⟩]
def outV (x0 : Vec F S128x1024 .f32) (x3 : Vec F S1024x1024 .f32) : Vec F S128x1024 .f32 :=
  View.canon [⟨rRows, k0_pay3 (View.ld x0 rRows) (View.ld x3 rMat)⟩]

/-- One store of the whole block covers it. -/
theorem cover_rows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 1600000 in
/-- On whole staging memrefs, the inputs' at contents x0 … x3 and the outputs' at anything, the body runs to the
    continuation with the inputs as they were and the three outputs at the three products. -/
theorem sound_kernel (c : Dev nD) (E : Set ℕ) (i : grid0.Coords)
    (arg1 : Memref sig .tc .vmem S128x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S128x1024 .f32) (harg5 : arg5.IsWhole) (arg6 : Memref sig .tc .vmem S128x1024 .f32) (harg6 : arg6.IsWhole)
    (arg7 : Memref sig .tc .vmem S128x1024 .f32) (harg7 : arg7.IsWhole)
    (x0 : Vec F S128x1024 .f32) (x1 x2 x3 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (outQ x0 x1) ∗ owns (c : Thread nD τ) arg6 fullShare (outK x0 x2)
            ∗ owns (c : Thread nD τ) arg7 fullShare (outV x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_rows _)
  isplitl [H5]
  · iexists _; isplitr
    swap; · iexact H5
    ipureintro
    exact View.read_writes_eq_canon _ _ _ (cover_rows _)
  iexists _; isplitr
  swap; · iexact H6
  ipureintro
  exact View.read_writes_eq_canon _ _ _ (cover_rows _)

/-! ## The region's proof data -/

/-- On core c: the arrays as the region finds them; after the body at point t each input's buffer still at
    its block and the three outputs' at the three products of the point's row block; between points the region
    keeps only what every region keeps (the scoped buffers it does not stage, at anything, and the generator
    register); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outQ (iblk V c 0 t) (iblk V c 1 t)
    | ⟨5, _⟩ => outK (iblk V c 0 t) (iblk V c 2 t)
    | ⟨6, _⟩ => outV (iblk V c 0 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = iblk V c 0 t := by dsimp only [dat]
theorem after_q (c : Dev nD) (t : Fin cfg0.N) : (dat V c).after 1 t = iblk V c 1 t := by dsimp only [dat]
theorem after_k (c : Dev nD) (t : Fin cfg0.N) : (dat V c).after 2 t = iblk V c 2 t := by dsimp only [dat]
theorem after_v (c : Dev nD) (t : Fin cfg0.N) : (dat V c).after 3 t = iblk V c 3 t := by dsimp only [dat]
theorem after_outQ (c : Dev nD) (t : Fin cfg0.N) : (dat V c).after 4 t = outQ (iblk V c 0 t) (iblk V c 1 t) := by dsimp only [dat]
theorem after_outK (c : Dev nD) (t : Fin cfg0.N) : (dat V c).after 5 t = outK (iblk V c 0 t) (iblk V c 2 t) := by dsimp only [dat]
theorem after_outV (c : Dev nD) (t : Fin cfg0.N) : (dat V c).after 6 t = outV (iblk V c 0 t) (iblk V c 3 t) := by dsimp only [dat]

theorem before_x (c : Dev nD) (t : Fin cfg0.N) (d) : (dat V c).before 0 t d = iblk V c 0 t :=
  before_x_of V (dat V c) (A_eq V c 0) (after_x V c) t d
theorem before_q (c : Dev nD) (t : Fin cfg0.N) (d) : (dat V c).before 1 t d = iblk V c 1 t :=
  before_q_of V (dat V c) (A_eq V c 1) (after_q V c) t d
theorem before_k (c : Dev nD) (t : Fin cfg0.N) (d) : (dat V c).before 2 t d = iblk V c 2 t :=
  before_k_of V (dat V c) (A_eq V c 2) (after_k V c) t d
theorem before_v (c : Dev nD) (t : Fin cfg0.N) (d) : (dat V c).before 3 t d = iblk V c 3 t :=
  before_v_of V (dat V c) (A_eq V c 3) (after_v V c) t d

/-! ## The body obligation, at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' memrefs hold their blocks, so the body's triple applies; what the region
    keeps between points and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_q, before_k, before_v]
  rw [show (dat V c).Φ t.succ = (dat V c).Φ t.castSucc from rfl,
    show (dat V c).owesAt () t.succ = (dat V c).owesAt () t.castSucc from rfl,
    after_x, after_q, after_k, after_v, after_outQ, after_outK, after_outV]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation (c : Dev nD) : BodyObligation (dat (F := F) V c) (defs₀ (F := F)) Variants.none () Set.univ := fun t => by
  rw [bigSep_W0, bigSep_W0]
  exact sound_body V c t

end Cert.KernelIdeal.ProjRegion

end
-- ==== Proof.AttnRunsI.lean ====
/-
  The attention region, part one: what its points share, and the body run in each of its three cases.

  The grid is 8 × 8: point t = 8·i + j works on query rows [512 i, 512 i + 512) and key rows [512 j, 512 j + 512).
  A scratch block of 512 × 1024 carries the running sum over the key blocks: at j = 0 the body first zeroes it;
  at every j it adds (Q_i · K_jᵀ · 2⁻⁵) · V_j to it; at j = 7 it stores the row softmax of the scratch into the
  output block, which is written back only there. So a point is in one of three cases — first key block,
  a middle one, the last — and the body is run once per case on any whole staging memrefs: the run finds, for
  each buffer the case stores into, the list of pieces it ends with.
-/
import proofs.«132627_j31696858644695_1_alg».proof.Proof.Gen.KernelIdeal.Launch
import proofs.«132627_j31696858644695_1_alg».proof.Proof.Gen.KernelIdeal.Skeleton
import proofs.«132627_j31696858644695_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.AttnRegion

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the grid -/

/-- "This is the first key block" (j = 0), as the body computes it from the grid coordinates. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- "This is the last key block" (j = 7). -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-! ## Where the windows are idle: the inputs never; the output everywhere but at the last key block -/

theorem live_qm : ∀ t : Fin cfg1.N, cfg1.idle 0 (grid1.coords t) = false := by decide +kernel
theorem live_km : ∀ t : Fin cfg1.N, cfg1.idle 1 (grid1.coords t) = false := by decide +kernel
theorem live_vm : ∀ t : Fin cfg1.N, cfg1.idle 2 (grid1.coords t) = false := by decide +kernel
theorem idle_out : ∀ t : Fin cfg1.N, ¬condLast (grid1.coords t) → cfg1.idle 3 (grid1.coords t) = true := by decide +kernel
theorem noFlush_out : ∀ t : Fin cfg1.N, ¬condLast (grid1.coords t) → (cfg1.win 3).flush t = false := by decide +kernel
theorem live_out : ∀ t : Fin cfg1.N, condLast (grid1.coords t) → cfg1.idle 3 (grid1.coords t) = false := by decide +kernel

/-! ## The memrefs the body is called with -/

/-- One staging buffer of the output window, through which its contents are stated. -/
abbrev VO : View sig .tc .vmem S512x1024 .f32 := (Memref.whole cc1_stg3_0 : Memref sig .tc .vmem S512x1024 .f32).view
abbrev ms0 (t : Fin cfg1.N) : Memref sig .tc .vmem S512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x1024 .f32 := win1_3.stage (cfg1.slots t 3)
abbrev hs3 (t : Fin cfg1.N) : (ms3 t).IsWhole := hstage1_3 ((cfg1.slots t 3).cast nbuf1_3)
/-- The scratch that carries the running sum: a whole scoped buffer of the kernel's own. -/
abbrev scM : Memref sig .tc .vmem S512x1024 .f32 := Memref.whole cc1_scratch0
abbrev VS : View sig .tc .vmem S512x1024 .f32 := scM.view

/-! ## The body, case by case -/

set_option maxHeartbeats 1600000 in
/-- FIRST KEY BLOCK (j = 0, not the last): the inputs at x0 x1 x2, the output buffer at xi3 and handed back
    untouched, the scratch at anything; the scratch ends with the pieces the run finds. -/
noncomputable def runFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : condFirst i) (hc1 : ¬condLast i)
    (x0 x1 x2 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1600000 in
/-- A MIDDLE KEY BLOCK (0 < j < 7): as above, the scratch now at the contents xs0 the point before left. -/
noncomputable def runMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : ¬condLast i)
    (x0 x1 x2 : Vec F S512x1024 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1600000 in
/-- THE LAST KEY BLOCK (j = 7): the output buffer at anything and stored into; both the output buffer and the
    scratch end with the pieces the run finds. -/
noncomputable def runLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : condLast i)
    (x0 x1 x2 : Vec F S512x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.AttnRegion

end
-- ==== Proof.AttnRegionI.lean ====
/-
  The attention region, part two: what each case leaves, the running sum point by point, the invariant that
  carries the scratch from one point to the next, the region's proof data and the body's obligation.

  After the body at point t = 8·i + j the scratch holds the sum over the key blocks 0 … j of
  (Q_i · K_j'ᵀ · 2⁻⁵) · V_j' (restarted from zero at j = 0), and at j = 7 the output block holds its row softmax.
  Here this is recorded without opening the arithmetic: each case's contents are the pieces its run found, read
  back; the contents after point n are defined by recursion on n through the case n falls in. Between two points
  the region keeps the scratch at exactly those contents, the other scoped buffers at anything and the generator
  register at some state.
-/
import proofs.«132627_j31696858644695_1_alg».proof.Proof.AttnRunsI

set_option maxRecDepth 16384

noncomputable section

namespace Cert.KernelIdeal.AttnRegion

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the query rows, -/
theorem before_qm_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the key rows, -/
theorem before_km_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the value rows. -/
theorem before_vm_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves: its pieces cover the buffer, and are read back -/

theorem scoverFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : condFirst i) (hc1 : ¬condLast i) (x0 x1 x2 : Vec F S512x1024 .f32) (y : S512x1024.Idx) :
    ∃ pc ∈ (runFirst (F := F) c i arg2 harg2 arg3 harg3 arg4 harg4 arg5 harg5 arg6 harg6 hc0 hc1 x0 x1 x2).2.1, y ∈ pc.1.set :=
  View.cover_of_tiledL (runFirst (F := F) c i arg2 harg2 arg3 harg3 arg4 harg4 arg5 harg5 arg6 harg6 hc0 hc1 x0 x1 x2).2.1 S512x1024.size (by sl_kernel_rfl) y
/-- The scratch after a first key block. -/
def soutFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : condFirst i) (hc1 : ¬condLast i) (x0 x1 x2 : Vec F S512x1024 .f32) : Vec F S512x1024 .f32 :=
  VS.read (Elt F) (VS.writes (Elt F) VS.junk (runFirst (F := F) c i arg2 harg2 arg3 harg3 arg4 harg4 arg5 harg5 arg6 harg6 hc0 hc1 x0 x1 x2).2.1)

theorem scoverMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : ¬condLast i) (x0 x1 x2 xs0 : Vec F S512x1024 .f32) (y : S512x1024.Idx) :
    ∃ pc ∈ (runMid (F := F) c i arg2 harg2 arg3 harg3 arg4 harg4 arg5 harg5 arg6 harg6 hc0 hc1 x0 x1 x2 xs0).2.1, y ∈ pc.1.set :=
  View.cover_of_tiledL (runMid (F := F) c i arg2 harg2 arg3 harg3 arg4 harg4 arg5 harg5 arg6 harg6 hc0 hc1 x0 x1 x2 xs0).2.1 S512x1024.size (by sl_kernel_rfl) y
/-- The scratch after a middle key block, from what the point before left in it. -/
def soutMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : ¬condLast i) (x0 x1 x2 xs0 : Vec F S512x1024 .f32) : Vec F S512x1024 .f32 :=
  VS.read (Elt F) (VS.writes (Elt F) VS.junk (runMid (F := F) c i arg2 harg2 arg3 harg3 arg4 harg4 arg5 harg5 arg6 harg6 hc0 hc1 x0 x1 x2 xs0).2.1)

theorem coverLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : condLast i) (x0 x1 x2 xs0 : Vec F S512x1024 .f32) (y : S512x1024.Idx) :
    ∃ pc ∈ (runLast (F := F) c i arg2 harg2 arg3 harg3 arg4 harg4 arg5 harg5 arg6 harg6 hc0 hc1 x0 x1 x2 xs0).1, y ∈ pc.1.set :=
  View.cover_of_tiledL (runLast (F := F) c i arg2 harg2 arg3 harg3 arg4 harg4 arg5 harg5 arg6 harg6 hc0 hc1 x0 x1 x2 xs0).1 S512x1024.size (by sl_kernel_rfl) y
/-- The output block after the last key block. -/
def outLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : condLast i) (x0 x1 x2 xs0 : Vec F S512x1024 .f32) : Vec F S512x1024 .f32 :=
  VO.read (Elt F) (VO.writes (Elt F) VO.junk (runLast (F := F) c i arg2 harg2 arg3 harg3 arg4 harg4 arg5 harg5 arg6 harg6 hc0 hc1 x0 x1 x2 xs0).1)
theorem scoverLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : condLast i) (x0 x1 x2 xs0 : Vec F S512x1024 .f32) (y : S512x1024.Idx) :
    ∃ pc ∈ (runLast (F := F) c i arg2 harg2 arg3 harg3 arg4 harg4 arg5 harg5 arg6 harg6 hc0 hc1 x0 x1 x2 xs0).2.1, y ∈ pc.1.set :=
  View.cover_of_tiledL (runLast (F := F) c i arg2 harg2 arg3 harg3 arg4 harg4 arg5 harg5 arg6 harg6 hc0 hc1 x0 x1 x2 xs0).2.1 S512x1024.size (by sl_kernel_rfl) y
/-- The scratch after the last key block. -/
def soutLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : condLast i) (x0 x1 x2 xs0 : Vec F S512x1024 .f32) : Vec F S512x1024 .f32 :=
  VS.read (Elt F) (VS.writes (Elt F) VS.junk (runLast (F := F) c i arg2 harg2 arg3 harg3 arg4 harg4 arg5 harg5 arg6 harg6 hc0 hc1 x0 x1 x2 xs0).2.1)

/-- Where the output block is not stored (every point but a last key block) its staging buffer is handed back
    untouched and not written back, and nothing consults what is recorded for it: a placeholder. -/
def idleOut : Vec F S512x1024 .f32 := VO.read (Elt F) (VO.junk : VO.ty.Contents (Elt F))

/-! ## What the output's staging buffer and the scratch hold after each point -/

/-- After the body at position n (the output's buffer, the scratch): the case n falls in, run at the point's
    memrefs and input blocks, the scratch it starts from being what position n − 1 left (but for a first key
    block, which zeroes it first). -/
def outsAt (c : Dev nD) : (n : ℕ) → n < cfg1.N → Vec F S512x1024 .f32 × Vec F S512x1024 .f32
  | 0, hn => (idleOut, soutFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 8 = 0 then
      if h1 : (n + 1) % 8 = 7 then
        False.elim (by omega)
      else
        (idleOut, soutFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩))
    else
      if h1 : (n + 1) % 8 = 7 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2,
         soutLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (idleOut, soutMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_First (c : Dev nD) (t : Fin cfg1.N) (h0 : t.val % 8 = 0) (h1 : ¬t.val % 8 = 7) :
    outsAt V c t.val t.isLt = (idleOut, soutFirst c (grid1.coords t) (ms0 t) (hs0 t) (ms1 t) (hs1 t) (ms2 t) (hs2 t) (ms3 t) (hs3 t) scM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans ((dif_neg h1).trans rfl)

theorem outsAt_Mid (c : Dev nD) (t : Fin cfg1.N) (h0 : ¬t.val % 8 = 0) (h1 : ¬t.val % 8 = 7) :
    outsAt V c t.val t.isLt = (idleOut, soutMid c (grid1.coords t) (ms0 t) (hs0 t) (ms1 t) (hs1 t) (ms2 t) (hs2 t) (ms3 t) (hs3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_Last (c : Dev nD) (t : Fin cfg1.N) (h0 : ¬t.val % 8 = 0) (h1 : t.val % 8 = 7) :
    outsAt V c t.val t.isLt = (outLast c (grid1.coords t) (ms0 t) (hs0 t) (ms1 t) (hs1 t) (ms2 t) (hs2 t) (ms3 t) (hs3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2,
      soutLast c (grid1.coords t) (ms0 t) (hs0 t) (ms1 t) (hs1 t) (ms2 t) (hs2 t) (ms3 t) (hs3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points: the scratch at what the point before left -/

/-- What every region keeps, with the scratch named as a memref owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM fullShare d)) ∗ (∃ r, prngReg c r)) := by
  unfold Pipeline.ΦA; rw [scopedRest1_eq]; simp only [scM, owns_whole]; try rfl

/-- Before position n: at the first point what every region keeps (the scratch at anything); afterwards the same
    with the scratch at what position n − 1 left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM fullShare ((outsAt V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM fullShare ((outsAt V c (n - 1) (by omega)).2)) ∗ (∃ r, prngReg c r)) := by
  cases n with
  | zero => exact absurd rfl hz
  | succ n => rfl

/-! ## The region's proof data -/

/-- On core c: the arrays as the region finds them; after the body at point t each input's buffer still at its
    block, the output's and the scratch at the recorded contents; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_qm (c : Dev nD) (t : Fin cfg1.N) : (dat V c).after 0 t = iblk V c 0 t := by dsimp only [dat]
theorem after_km (c : Dev nD) (t : Fin cfg1.N) : (dat V c).after 1 t = iblk V c 1 t := by dsimp only [dat]
theorem after_vm (c : Dev nD) (t : Fin cfg1.N) : (dat V c).after 2 t = iblk V c 2 t := by dsimp only [dat]
theorem after_out (c : Dev nD) (t : Fin cfg1.N) : (dat V c).after 3 t = (outsAt V c t.val t.isLt).1 := by dsimp only [dat]

theorem before_qm (c : Dev nD) (t : Fin cfg1.N) (d) : (dat V c).before 0 t d = iblk V c 0 t :=
  before_qm_of V (dat V c) (A_eq V c 0) (after_qm V c) t d
theorem before_km (c : Dev nD) (t : Fin cfg1.N) (d) : (dat V c).before 1 t d = iblk V c 1 t :=
  before_km_of V (dat V c) (A_eq V c 1) (after_km V c) t d
theorem before_vm (c : Dev nD) (t : Fin cfg1.N) (d) : (dat V c).before 2 t d = iblk V c 2 t :=
  before_vm_of V (dat V c) (A_eq V c 2) (after_vm V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_qm (c : Dev nD) (t : Fin cfg1.N) : (dat V c).leavesExact 0 t = owns (c : Thread nD τ) (ms0 t) fullShare (iblk V c 0 t) := by
  unfold Dat.leavesExact; rw [live_qm t, after_qm]
theorem leaves_km (c : Dev nD) (t : Fin cfg1.N) : (dat V c).leavesExact 1 t = owns (c : Thread nD τ) (ms1 t) fullShare (iblk V c 1 t) := by
  unfold Dat.leavesExact; rw [live_km t, after_km]
theorem leaves_vm (c : Dev nD) (t : Fin cfg1.N) : (dat V c).leavesExact 2 t = owns (c : Thread nD τ) (ms2 t) fullShare (iblk V c 2 t) := by
  unfold Dat.leavesExact; rw [live_vm t, after_vm]

set_option maxHeartbeats 4800000 in
/-- The body at any point: the inputs' memrefs hold their blocks; the closed forms say which case the point is in;
    the invariant hands the body the scratch at what the point before left (at anything at the very first point)
    and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_qm, before_km, before_vm]
  rw [show (dat V c).owesAt () t.succ = (dat V c).owesAt () t.castSucc from rfl]
  rw [show (dat V c).Φ t.succ = PhiS V c (t.val + 1) t.isLt from rfl, PhiS_succ]
  rw [leaves_qm, leaves_km, leaves_vm]
  have hN : t.val < 64 := lt_of_lt_of_eq t.isLt (show cfg1.N = 64 from N_1)
  by_cases h0 : t.val % 8 = 0
  · have h1 : ¬t.val % 8 = 7 := by omega
    rw [Dat.leavesExact_idle (dat V c) 3 t (idle_out t (fun h => h1 ((hcondLast t).mp h))) (noFlush_out t (fun h => h1 ((hcondLast t).mp h)))]
    rw [outsAt_First V c t h0 h1]
    unfold soutFirst; (try dsimp only)
    by_cases hz : t.val = 0
    · rw [PhiS_castSucc V c t, PhiS_zero V c _ _ hz, PhiA_eq]
      iintro ⟨⟨⟨R1, R2, R3, R4, R5, R6, R7, R8, R9, R10, R11, HS0⟩, Hg⟩, Ho, ⟨%d0, H0⟩, ⟨%d1, H1⟩, ⟨%d2, H2⟩, ⟨%d3, H3⟩⟩
      iapply ((runFirst c (grid1.coords t) _ _ _ _ _ _ _ _ _ _ ((hcondFirst t).mpr h0) (fun h => h1 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 R7 R8 R9 R10 R11 HS0 Hg]
      · isplitr [Hg]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        unfold owns; iexists _; isplitr
        swap; · iexact HS0
        ipureintro; exact View.read_writes_of_cover _ _ _ _ _ (scoverFirst c _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨R1, R2, R3, R4, R5, R6, R7, R8, R9, R10, R11, HS0⟩, Hg⟩, Ho, ⟨%d0, H0⟩, ⟨%d1, H1⟩, ⟨%d2, H2⟩, ⟨%d3, H3⟩⟩
      iapply ((runFirst c (grid1.coords t) _ _ _ _ _ _ _ _ _ _ ((hcondFirst t).mpr h0) (fun h => h1 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [R1 R2 R3 R4 R5 R6 R7 R8 R9 R10 R11 HS0 Hg]
      · isplitr [Hg]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        unfold owns; iexists _; isplitr
        swap; · iexact HS0
        ipureintro; exact View.read_writes_of_cover _ _ _ _ _ (scoverFirst c _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat V c).leavesExact 3 t = owns (c : Thread nD τ) (ms3 t) fullShare ((dat V c).after 3 t) from by
        unfold Dat.leavesExact; rw [live_out t ((hcondLast t).mpr h1)], after_out]
      rw [outsAt_Last V c t h0 h1]
      unfold outLast soutLast; (try dsimp only)
      rw [PhiS_castSucc V c t, PhiS_pos V c _ _ hz]
      iintro ⟨⟨⟨R1, R2, R3, R4, R5, R6, R7, R8, R9, R10, R11, HS0⟩, Hg⟩, Ho, ⟨%d0, H0⟩, ⟨%d1, H1⟩, ⟨%d2, H2⟩, ⟨%d3, H3⟩⟩
      iapply ((runLast c (grid1.coords t) _ _ _ _ _ _ _ _ _ _ (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [R1 R2 R3 R4 R5 R6 R7 R8 R9 R10 R11 HS0 Hg]
      · isplitr [Hg]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        unfold owns; iexists _; isplitr
        swap; · iexact HS0
        ipureintro; exact View.read_writes_of_cover _ _ _ _ _ (scoverLast c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _ _)
    · rw [Dat.leavesExact_idle (dat V c) 3 t (idle_out t (fun h => h1 ((hcondLast t).mp h))) (noFlush_out t (fun h => h1 ((hcondLast t).mp h)))]
      rw [outsAt_Mid V c t h0 h1]
      unfold soutMid; (try dsimp only)
      rw [PhiS_castSucc V c t, PhiS_pos V c _ _ hz]
      iintro ⟨⟨⟨R1, R2, R3, R4, R5, R6, R7, R8, R9, R10, R11, HS0⟩, Hg⟩, Ho, ⟨%d0, H0⟩, ⟨%d1, H1⟩, ⟨%d2, H2⟩, ⟨%d3, H3⟩⟩
      iapply ((runMid c (grid1.coords t) _ _ _ _ _ _ _ _ _ _ (fun h => h0 ((hcondFirst t).mp h)) (fun h => h1 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 R7 R8 R9 R10 R11 HS0 Hg]
      · isplitr [Hg]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        unfold owns; iexists _; isplitr
        swap; · iexact HS0
        ipureintro; exact View.read_writes_of_cover _ _ _ _ _ (scoverMid c _ _ _ _ _ _ _ _ _ _ _ _ _ _ _ _ _)
      isplitl [Ho]; · iexact Ho
      isplitl [H0]; · iexact H0
      isplitl [H1]; · iexact H1
      isplitl [H2]; · iexact H2
      iexists _; iexact H3

/-- The pipeline's obligation on the body, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives back what every region keeps: the scratch's named contents
    are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨R1, R2, R3, R4, R5, R6, R7, R8, R9, R10, R11, HS0⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexists _; iexact HS0

theorem hout (c : Dev nD) : (dat V c).Φ (Fin.last cfg1.N) ⊢ Pipeline.ΦA spec1 c :=
  Phi_out V c _ (by rw [Fin.val_last]; have : cfg1.N = 64 := N_1; omega)

end Cert.KernelIdeal.AttnRegion

end
-- ==== Proof.WholeRunI.lean ====
/-
  The whole program: the projection region, then the attention region, with nothing on the host between.

  The contents of every unscoped buffer are followed from the launch through the two regions: a region leaves
  each of its windows' arrays at what its write-backs make of it and every other buffer as it found it. The
  second region is entered from what the first one left, so its query, key and value arrays ARE the first
  region's three output arrays. The run below says that every weakly fair execution terminates without a fault
  and ends with every unscoped buffer at the last of these contents; in particular the four arguments end as
  launched, and the result array ends at what the attention region's write-backs leave.
-/
import proofs.«132627_j31696858644695_1_alg».proof.Proof.ProjRegionI
import proofs.«132627_j31696858644695_1_alg».proof.Proof.AttnRegionI
import Idealize.ShloMosaic.Lib.Pipeline.RegionsLoop
import Idealize.ShloMosaic.Lib.Pipeline.FrameSuffix

set_option maxRecDepth 16384

noncomputable section

namespace Cert.KernelIdeal.WholeRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch: what the projection region is entered from. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the projection region: its arrays at what its write-backs leave, every other buffer as entered. -/
def W1 (c : Dev nD) : Valuation τ sig (Elt F) :=
  Pipeline.withArrays spec0 c (W0 m ρ c) fun w => (ProjRegion.dat (V0 m ρ) c).arrAt w cfg0.N
theorem W1_arr (c : Dev nD) (w : Fin cfg0.W) :
    W1 m ρ c (Proc.devRef .tc (Pipeline.arrRef spec0 w)) = (ProjRegion.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (ProjRegion.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the attention region, likewise, from what the projection region left. -/
def W2 (c : Dev nD) : Valuation τ sig (Elt F) :=
  Pipeline.withArrays spec1 c (W1 m ρ c) fun w => (AttnRegion.dat (V1 m ρ) c).arrAt w cfg1.N
theorem W2_arr (c : Dev nD) (w : Fin cfg1.W) :
    W2 m ρ c (Proc.devRef .tc (Pipeline.arrRef spec1 w)) = (AttnRegion.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (AttnRegion.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- Argument 0 ends as launched: the second region does not stage it, the first reads it through an input window. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((ProjRegion.dat (V0 m ρ) c).arrAt_in 0 rfl _).trans (ProjRegion.A_eq (V0 m ρ) c 0))
    _ = m ((c : Thread nD τ).loc main_arg0) := rfl
/-- Argument 1 ends as launched: the second region does not stage it, the first reads it through an input window. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((ProjRegion.dat (V0 m ρ) c).arrAt_in 1 rfl _).trans (ProjRegion.A_eq (V0 m ρ) c 1))
    _ = m ((c : Thread nD τ).loc main_arg1) := rfl
/-- Argument 2 ends as launched: the second region does not stage it, the first reads it through an input window. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((ProjRegion.dat (V0 m ρ) c).arrAt_in 2 rfl _).trans (ProjRegion.A_eq (V0 m ρ) c 2))
    _ = m ((c : Thread nD τ).loc main_arg2) := rfl
/-- Argument 3 ends as launched: the second region does not stage it, the first reads it through an input window. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 3).trans (((ProjRegion.dat (V0 m ρ) c).arrAt_in 3 rfl _).trans (ProjRegion.A_eq (V0 m ρ) c 3))
    _ = m ((c : Thread nD τ).loc main_arg3) := rfl

/-- The result array ends at what the attention region's write-backs of its output window leave. -/
theorem W2_main_v1 (c : Dev nD) : W2 m ρ c (Proc.devRef .tc main_v1) = (AttnRegion.dat (V1 m ρ) c).arrAt 3 cfg1.N :=
  W2_arr m ρ c 3

/-! ## The proof data family and the thread state -/

/-- No pallas_call has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => ProjRegion.dat (V0 m ρ) c
  | ⟨1, _⟩ => fun c => AttnRegion.dat (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- THE PROJECTION REGION over the thread state: entered from every unscoped buffer at the launch contents, left
    at W1. -/
def regProj : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (ProjRegion.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE ATTENTION REGION over the thread state: entered from W1, left at W2. Its invariant starts as what
    every region keeps and ends, the scratch's contents forgotten, as the same. -/
def regAttn : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (AttnRegion.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m ρ 1 c).Φ 0 from AttnRegion.hin (V1 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from AttnRegion.hout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (regProj m ρ), .region (regAttn m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and ends with the result array at what the attention region's write-backs leave and the four argument
    arrays as launched. -/
theorem run : θ_run defs (onTc (τ := τ) (main (F := F))) ⟨m, fun _ => 0, ρ⟩ (fun r => ∀ c : Dev nD,
      r.2.mem ((c.tc : Thread nD τ).loc main_v1) = (AttnRegion.dat (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.WholeRun

end
-- ==== Proof.ProjRegionB.lean ====
/-
  The projection region: x·q, x·k, x·v on blocks of 128 rows.

  At grid point t the body loads rows [128 t, 128 t + 128) of x and the whole of q, k and v, and stores the
  three products of that row block into the three output blocks, each by one store covering its block. Stated
  here, at any float instance and for any contents V the region may be entered from: what each window's
  staging buffer holds before and after the body at a point, the body's triple, and the obligation the
  pipeline asks of the body at every point. The region keeps nothing between points.
-/
import proofs.«132627_j31696858644695_1_alg».proof.Proof.Gen.Kernel.Launch
import proofs.«132627_j31696858644695_1_alg».proof.Proof.Gen.Kernel.Skeleton
import proofs.«132627_j31696858644695_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.ProjRegion

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is
    not fetched its block index has not moved): the rows of x, -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the whole of q, -/
theorem before_q_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the whole of k, -/
theorem before_k_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- the whole of v. -/
theorem before_v_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store takes its buffer whole -/

abbrev rRows : Rect S128x1024 := Rect.unit (s := S128x1024) ![0, 0] S128x1024.size inb_S128x1024_S128x1024_0_0
abbrev rMat : Rect S1024x1024 := Rect.unit (s := S1024x1024) ![0, 0] S1024x1024.size inb_S1024x1024_S1024x1024_0_0

/-! ## What the body leaves in each output block: the product of the row block with one matrix -/

def outQ (x0 : Vec F S128x1024 .f32) (x1 : Vec F S1024x1024 .f32) : Vec F S128x1024 .f32 :=
  View.canon [⟨rRows, k0_pay1 (View.ld x0 rRows) (View.ld x1 rMat)⟩]
def outK (x0 : Vec F S128x1024 .f32) (x2 : Vec F S1024x1024 .f32) : Vec F S128x1024 .f32 :=
  View.canon [⟨rRows, k0_pay2 (View.ld x0 rRows) (View.ld x2 rMat)⟩]
def outV (x0 : Vec F S128x1024 .f32) (x3 : Vec F S1024x1024 .f32) : Vec F S128x1024 .f32 :=
  View.canon [⟨rRows, k0_pay3 (View.ld x0 rRows) (View.ld x3 rMat)⟩]

/-- One store of the whole block covers it. -/
theorem cover_rows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 1600000 in
/-- On whole staging memrefs, the inputs' at contents x0 … x3 and the outputs' at anything, the body runs to the
    continuation with the inputs as they were and the three outputs at the three products. -/
theorem sound_kernel (c : Dev nD) (E : Set ℕ) (i : grid0.Coords)
    (arg1 : Memref sig .tc .vmem S128x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S128x1024 .f32) (harg5 : arg5.IsWhole) (arg6 : Memref sig .tc .vmem S128x1024 .f32) (harg6 : arg6.IsWhole)
    (arg7 : Memref sig .tc .vmem S128x1024 .f32) (harg7 : arg7.IsWhole)
    (x0 : Vec F S128x1024 .f32) (x1 x2 x3 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (outQ x0 x1) ∗ owns (c : Thread nD τ) arg6 fullShare (outK x0 x2)
            ∗ owns (c : Thread nD τ) arg7 fullShare (outV x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_rows _)
  isplitl [H5]
  · iexists _; isplitr
    swap; · iexact H5
    ipureintro
    exact View.read_writes_eq_canon _ _ _ (cover_rows _)
  iexists _; isplitr
  swap; · iexact H6
  ipureintro
  exact View.read_writes_eq_canon _ _ _ (cover_rows _)

/-! ## The region's proof data -/

/-- On core c: the arrays as the region finds them; after the body at point t each input's buffer still at
    its block and the three outputs' at the three products of the point's row block; between points the region
    keeps only what every region keeps (the scoped buffers it does not stage, at anything, and the generator
    register); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outQ (iblk V c 0 t) (iblk V c 1 t)
    | ⟨5, _⟩ => outK (iblk V c 0 t) (iblk V c 2 t)
    | ⟨6, _⟩ => outV (iblk V c 0 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = iblk V c 0 t := by dsimp only [dat]
theorem after_q (c : Dev nD) (t : Fin cfg0.N) : (dat V c).after 1 t = iblk V c 1 t := by dsimp only [dat]
theorem after_k (c : Dev nD) (t : Fin cfg0.N) : (dat V c).after 2 t = iblk V c 2 t := by dsimp only [dat]
theorem after_v (c : Dev nD) (t : Fin cfg0.N) : (dat V c).after 3 t = iblk V c 3 t := by dsimp only [dat]
theorem after_outQ (c : Dev nD) (t : Fin cfg0.N) : (dat V c).after 4 t = outQ (iblk V c 0 t) (iblk V c 1 t) := by dsimp only [dat]
theorem after_outK (c : Dev nD) (t : Fin cfg0.N) : (dat V c).after 5 t = outK (iblk V c 0 t) (iblk V c 2 t) := by dsimp only [dat]
theorem after_outV (c : Dev nD) (t : Fin cfg0.N) : (dat V c).after 6 t = outV (iblk V c 0 t) (iblk V c 3 t) := by dsimp only [dat]

theorem before_x (c : Dev nD) (t : Fin cfg0.N) (d) : (dat V c).before 0 t d = iblk V c 0 t :=
  before_x_of V (dat V c) (A_eq V c 0) (after_x V c) t d
theorem before_q (c : Dev nD) (t : Fin cfg0.N) (d) : (dat V c).before 1 t d = iblk V c 1 t :=
  before_q_of V (dat V c) (A_eq V c 1) (after_q V c) t d
theorem before_k (c : Dev nD) (t : Fin cfg0.N) (d) : (dat V c).before 2 t d = iblk V c 2 t :=
  before_k_of V (dat V c) (A_eq V c 2) (after_k V c) t d
theorem before_v (c : Dev nD) (t : Fin cfg0.N) (d) : (dat V c).before 3 t d = iblk V c 3 t :=
  before_v_of V (dat V c) (A_eq V c 3) (after_v V c) t d

/-! ## The body obligation, at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' memrefs hold their blocks, so the body's triple applies; what the region
    keeps between points and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_q, before_k, before_v]
  rw [show (dat V c).Φ t.succ = (dat V c).Φ t.castSucc from rfl,
    show (dat V c).owesAt () t.succ = (dat V c).owesAt () t.castSucc from rfl,
    after_x, after_q, after_k, after_v, after_outQ, after_outK, after_outV]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation (c : Dev nD) : BodyObligation (dat (F := F) V c) (defs₀ (F := F)) Variants.none () Set.univ := fun t => by
  rw [bigSep_W0, bigSep_W0]
  exact sound_body V c t

end Cert.Kernel.ProjRegion

end
-- ==== Proof.AttnRunsB.lean ====
/-
  The attention region, part one: what its points share, and the body run in each of its three cases.

  The grid is 8 × 8: point t = 8·i + j works on query rows [512 i, 512 i + 512) and key rows [512 j, 512 j + 512).
  A scratch block of 512 × 1024 carries the running sum over the key blocks: at j = 0 the body first zeroes it;
  at every j it adds (Q_i · K_jᵀ · 2⁻⁵) · V_j to it; at j = 7 it stores the row softmax of the scratch into the
  output block, which is written back only there. So a point is in one of three cases — first key block,
  a middle one, the last — and the body is run once per case on any whole staging memrefs: the run finds, for
  each buffer the case stores into, the list of pieces it ends with.
-/
import proofs.«132627_j31696858644695_1_alg».proof.Proof.Gen.Kernel.Launch
import proofs.«132627_j31696858644695_1_alg».proof.Proof.Gen.Kernel.Skeleton
import proofs.«132627_j31696858644695_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.AttnRegion

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the grid -/

/-- "This is the first key block" (j = 0), as the body computes it from the grid coordinates. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- "This is the last key block" (j = 7). -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-! ## Where the windows are idle: the inputs never; the output everywhere but at the last key block -/

theorem live_qm : ∀ t : Fin cfg1.N, cfg1.idle 0 (grid1.coords t) = false := by decide +kernel
theorem live_km : ∀ t : Fin cfg1.N, cfg1.idle 1 (grid1.coords t) = false := by decide +kernel
theorem live_vm : ∀ t : Fin cfg1.N, cfg1.idle 2 (grid1.coords t) = false := by decide +kernel
theorem idle_out : ∀ t : Fin cfg1.N, ¬condLast (grid1.coords t) → cfg1.idle 3 (grid1.coords t) = true := by decide +kernel
theorem noFlush_out : ∀ t : Fin cfg1.N, ¬condLast (grid1.coords t) → (cfg1.win 3).flush t = false := by decide +kernel
theorem live_out : ∀ t : Fin cfg1.N, condLast (grid1.coords t) → cfg1.idle 3 (grid1.coords t) = false := by decide +kernel

/-! ## The memrefs the body is called with -/

/-- One staging buffer of the output window, through which its contents are stated. -/
abbrev VO : View sig .tc .vmem S512x1024 .f32 := (Memref.whole cc1_stg3_0 : Memref sig .tc .vmem S512x1024 .f32).view
abbrev ms0 (t : Fin cfg1.N) : Memref sig .tc .vmem S512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x1024 .f32 := win1_3.stage (cfg1.slots t 3)
abbrev hs3 (t : Fin cfg1.N) : (ms3 t).IsWhole := hstage1_3 ((cfg1.slots t 3).cast nbuf1_3)
/-- The scratch that carries the running sum: a whole scoped buffer of the kernel's own. -/
abbrev scM : Memref sig .tc .vmem S512x1024 .f32 := Memref.whole cc1_scratch0
abbrev VS : View sig .tc .vmem S512x1024 .f32 := scM.view

/-! ## The body, case by case -/

set_option maxHeartbeats 1600000 in
/-- FIRST KEY BLOCK (j = 0, not the last): the inputs at x0 x1 x2, the output buffer at xi3 and handed back
    untouched, the scratch at anything; the scratch ends with the pieces the run finds. -/
noncomputable def runFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : condFirst i) (hc1 : ¬condLast i)
    (x0 x1 x2 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1600000 in
/-- A MIDDLE KEY BLOCK (0 < j < 7): as above, the scratch now at the contents xs0 the point before left. -/
noncomputable def runMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : ¬condLast i)
    (x0 x1 x2 : Vec F S512x1024 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1600000 in
/-- THE LAST KEY BLOCK (j = 7): the output buffer at anything and stored into; both the output buffer and the
    scratch end with the pieces the run finds. -/
noncomputable def runLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : condLast i)
    (x0 x1 x2 : Vec F S512x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.AttnRegion

end
-- ==== Proof.AttnRegionB.lean ====
/-
  The attention region, part two: what each case leaves, the running sum point by point, the invariant that
  carries the scratch from one point to the next, the region's proof data and the body's obligation.

  After the body at point t = 8·i + j the scratch holds the sum over the key blocks 0 … j of
  (Q_i · K_j'ᵀ · 2⁻⁵) · V_j' (restarted from zero at j = 0), and at j = 7 the output block holds its row softmax.
  Here this is recorded without opening the arithmetic: each case's contents are the pieces its run found, read
  back; the contents after point n are defined by recursion on n through the case n falls in. Between two points
  the region keeps the scratch at exactly those contents, the other scoped buffers at anything and the generator
  register at some state.
-/
import proofs.«132627_j31696858644695_1_alg».proof.Proof.AttnRunsB

set_option maxRecDepth 16384

noncomputable section

namespace Cert.Kernel.AttnRegion

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the query rows, -/
theorem before_qm_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the key rows, -/
theorem before_km_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the value rows. -/
theorem before_vm_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves: its pieces cover the buffer, and are read back -/

theorem scoverFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : condFirst i) (hc1 : ¬condLast i) (x0 x1 x2 : Vec F S512x1024 .f32) (y : S512x1024.Idx) :
    ∃ pc ∈ (runFirst (F := F) c i arg2 harg2 arg3 harg3 arg4 harg4 arg5 harg5 arg6 harg6 hc0 hc1 x0 x1 x2).2.1, y ∈ pc.1.set :=
  View.cover_of_tiledL (runFirst (F := F) c i arg2 harg2 arg3 harg3 arg4 harg4 arg5 harg5 arg6 harg6 hc0 hc1 x0 x1 x2).2.1 S512x1024.size (by sl_kernel_rfl) y
/-- The scratch after a first key block. -/
def soutFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : condFirst i) (hc1 : ¬condLast i) (x0 x1 x2 : Vec F S512x1024 .f32) : Vec F S512x1024 .f32 :=
  VS.read (Elt F) (VS.writes (Elt F) VS.junk (runFirst (F := F) c i arg2 harg2 arg3 harg3 arg4 harg4 arg5 harg5 arg6 harg6 hc0 hc1 x0 x1 x2).2.1)

theorem scoverMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : ¬condLast i) (x0 x1 x2 xs0 : Vec F S512x1024 .f32) (y : S512x1024.Idx) :
    ∃ pc ∈ (runMid (F := F) c i arg2 harg2 arg3 harg3 arg4 harg4 arg5 harg5 arg6 harg6 hc0 hc1 x0 x1 x2 xs0).2.1, y ∈ pc.1.set :=
  View.cover_of_tiledL (runMid (F := F) c i arg2 harg2 arg3 harg3 arg4 harg4 arg5 harg5 arg6 harg6 hc0 hc1 x0 x1 x2 xs0).2.1 S512x1024.size (by sl_kernel_rfl) y
/-- The scratch after a middle key block, from what the point before left in it. -/
def soutMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : ¬condLast i) (x0 x1 x2 xs0 : Vec F S512x1024 .f32) : Vec F S512x1024 .f32 :=
  VS.read (Elt F) (VS.writes (Elt F) VS.junk (runMid (F := F) c i arg2 harg2 arg3 harg3 arg4 harg4 arg5 harg5 arg6 harg6 hc0 hc1 x0 x1 x2 xs0).2.1)

theorem coverLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : condLast i) (x0 x1 x2 xs0 : Vec F S512x1024 .f32) (y : S512x1024.Idx) :
    ∃ pc ∈ (runLast (F := F) c i arg2 harg2 arg3 harg3 arg4 harg4 arg5 harg5 arg6 harg6 hc0 hc1 x0 x1 x2 xs0).1, y ∈ pc.1.set :=
  View.cover_of_tiledL (runLast (F := F) c i arg2 harg2 arg3 harg3 arg4 harg4 arg5 harg5 arg6 harg6 hc0 hc1 x0 x1 x2 xs0).1 S512x1024.size (by sl_kernel_rfl) y
/-- The output block after the last key block. -/
def outLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : condLast i) (x0 x1 x2 xs0 : Vec F S512x1024 .f32) : Vec F S512x1024 .f32 :=
  VO.read (Elt F) (VO.writes (Elt F) VO.junk (runLast (F := F) c i arg2 harg2 arg3 harg3 arg4 harg4 arg5 harg5 arg6 harg6 hc0 hc1 x0 x1 x2 xs0).1)
theorem scoverLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : condLast i) (x0 x1 x2 xs0 : Vec F S512x1024 .f32) (y : S512x1024.Idx) :
    ∃ pc ∈ (runLast (F := F) c i arg2 harg2 arg3 harg3 arg4 harg4 arg5 harg5 arg6 harg6 hc0 hc1 x0 x1 x2 xs0).2.1, y ∈ pc.1.set :=
  View.cover_of_tiledL (runLast (F := F) c i arg2 harg2 arg3 harg3 arg4 harg4 arg5 harg5 arg6 harg6 hc0 hc1 x0 x1 x2 xs0).2.1 S512x1024.size (by sl_kernel_rfl) y
/-- The scratch after the last key block. -/
def soutLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : condLast i) (x0 x1 x2 xs0 : Vec F S512x1024 .f32) : Vec F S512x1024 .f32 :=
  VS.read (Elt F) (VS.writes (Elt F) VS.junk (runLast (F := F) c i arg2 harg2 arg3 harg3 arg4 harg4 arg5 harg5 arg6 harg6 hc0 hc1 x0 x1 x2 xs0).2.1)

/-- Where the output block is not stored (every point but a last key block) its staging buffer is handed back
    untouched and not written back, and nothing consults what is recorded for it: a placeholder. -/
def idleOut : Vec F S512x1024 .f32 := VO.read (Elt F) (VO.junk : VO.ty.Contents (Elt F))

/-! ## What the output's staging buffer and the scratch hold after each point -/

/-- After the body at position n (the output's buffer, the scratch): the case n falls in, run at the point's
    memrefs and input blocks, the scratch it starts from being what position n − 1 left (but for a first key
    block, which zeroes it first). -/
def outsAt (c : Dev nD) : (n : ℕ) → n < cfg1.N → Vec F S512x1024 .f32 × Vec F S512x1024 .f32
  | 0, hn => (idleOut, soutFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 8 = 0 then
      if h1 : (n + 1) % 8 = 7 then
        False.elim (by omega)
      else
        (idleOut, soutFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩))
    else
      if h1 : (n + 1) % 8 = 7 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2,
         soutLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (idleOut, soutMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_First (c : Dev nD) (t : Fin cfg1.N) (h0 : t.val % 8 = 0) (h1 : ¬t.val % 8 = 7) :
    outsAt V c t.val t.isLt = (idleOut, soutFirst c (grid1.coords t) (ms0 t) (hs0 t) (ms1 t) (hs1 t) (ms2 t) (hs2 t) (ms3 t) (hs3 t) scM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans ((dif_neg h1).trans rfl)

theorem outsAt_Mid (c : Dev nD) (t : Fin cfg1.N) (h0 : ¬t.val % 8 = 0) (h1 : ¬t.val % 8 = 7) :
    outsAt V c t.val t.isLt = (idleOut, soutMid c (grid1.coords t) (ms0 t) (hs0 t) (ms1 t) (hs1 t) (ms2 t) (hs2 t) (ms3 t) (hs3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_Last (c : Dev nD) (t : Fin cfg1.N) (h0 : ¬t.val % 8 = 0) (h1 : t.val % 8 = 7) :
    outsAt V c t.val t.isLt = (outLast c (grid1.coords t) (ms0 t) (hs0 t) (ms1 t) (hs1 t) (ms2 t) (hs2 t) (ms3 t) (hs3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2,
      soutLast c (grid1.coords t) (ms0 t) (hs0 t) (ms1 t) (hs1 t) (ms2 t) (hs2 t) (ms3 t) (hs3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points: the scratch at what the point before left -/

/-- What every region keeps, with the scratch named as a memref owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM fullShare d)) ∗ (∃ r, prngReg c r)) := by
  unfold Pipeline.ΦA; rw [scopedRest1_eq]; simp only [scM, owns_whole]; try rfl

/-- Before position n: at the first point what every region keeps (the scratch at anything); afterwards the same
    with the scratch at what position n − 1 left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM fullShare ((outsAt V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM fullShare ((outsAt V c (n - 1) (by omega)).2)) ∗ (∃ r, prngReg c r)) := by
  cases n with
  | zero => exact absurd rfl hz
  | succ n => rfl

/-! ## The region's proof data -/

/-- On core c: the arrays as the region finds them; after the body at point t each input's buffer still at its
    block, the output's and the scratch at the recorded contents; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_qm (c : Dev nD) (t : Fin cfg1.N) : (dat V c).after 0 t = iblk V c 0 t := by dsimp only [dat]
theorem after_km (c : Dev nD) (t : Fin cfg1.N) : (dat V c).after 1 t = iblk V c 1 t := by dsimp only [dat]
theorem after_vm (c : Dev nD) (t : Fin cfg1.N) : (dat V c).after 2 t = iblk V c 2 t := by dsimp only [dat]
theorem after_out (c : Dev nD) (t : Fin cfg1.N) : (dat V c).after 3 t = (outsAt V c t.val t.isLt).1 := by dsimp only [dat]

theorem before_qm (c : Dev nD) (t : Fin cfg1.N) (d) : (dat V c).before 0 t d = iblk V c 0 t :=
  before_qm_of V (dat V c) (A_eq V c 0) (after_qm V c) t d
theorem before_km (c : Dev nD) (t : Fin cfg1.N) (d) : (dat V c).before 1 t d = iblk V c 1 t :=
  before_km_of V (dat V c) (A_eq V c 1) (after_km V c) t d
theorem before_vm (c : Dev nD) (t : Fin cfg1.N) (d) : (dat V c).before 2 t d = iblk V c 2 t :=
  before_vm_of V (dat V c) (A_eq V c 2) (after_vm V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_qm (c : Dev nD) (t : Fin cfg1.N) : (dat V c).leavesExact 0 t = owns (c : Thread nD τ) (ms0 t) fullShare (iblk V c 0 t) := by
  unfold Dat.leavesExact; rw [live_qm t, after_qm]
theorem leaves_km (c : Dev nD) (t : Fin cfg1.N) : (dat V c).leavesExact 1 t = owns (c : Thread nD τ) (ms1 t) fullShare (iblk V c 1 t) := by
  unfold Dat.leavesExact; rw [live_km t, after_km]
theorem leaves_vm (c : Dev nD) (t : Fin cfg1.N) : (dat V c).leavesExact 2 t = owns (c : Thread nD τ) (ms2 t) fullShare (iblk V c 2 t) := by
  unfold Dat.leavesExact; rw [live_vm t, after_vm]

set_option maxHeartbeats 4800000 in
/-- The body at any point: the inputs' memrefs hold their blocks; the closed forms say which case the point is in;
    the invariant hands the body the scratch at what the point before left (at anything at the very first point)
    and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_qm, before_km, before_vm]
  rw [show (dat V c).owesAt () t.succ = (dat V c).owesAt () t.castSucc from rfl]
  rw [show (dat V c).Φ t.succ = PhiS V c (t.val + 1) t.isLt from rfl, PhiS_succ]
  rw [leaves_qm, leaves_km, leaves_vm]
  have hN : t.val < 64 := lt_of_lt_of_eq t.isLt (show cfg1.N = 64 from N_1)
  by_cases h0 : t.val % 8 = 0
  · have h1 : ¬t.val % 8 = 7 := by omega
    rw [Dat.leavesExact_idle (dat V c) 3 t (idle_out t (fun h => h1 ((hcondLast t).mp h))) (noFlush_out t (fun h => h1 ((hcondLast t).mp h)))]
    rw [outsAt_First V c t h0 h1]
    unfold soutFirst; (try dsimp only)
    by_cases hz : t.val = 0
    · rw [PhiS_castSucc V c t, PhiS_zero V c _ _ hz, PhiA_eq]
      iintro ⟨⟨⟨R1, R2, R3, R4, R5, R6, R7, R8, R9, R10, R11, HS0⟩, Hg⟩, Ho, ⟨%d0, H0⟩, ⟨%d1, H1⟩, ⟨%d2, H2⟩, ⟨%d3, H3⟩⟩
      iapply ((runFirst c (grid1.coords t) _ _ _ _ _ _ _ _ _ _ ((hcondFirst t).mpr h0) (fun h => h1 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 R7 R8 R9 R10 R11 HS0 Hg]
      · isplitr [Hg]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        unfold owns; iexists _; isplitr
        swap; · iexact HS0
        ipureintro; exact View.read_writes_of_cover _ _ _ _ _ (scoverFirst c _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨R1, R2, R3, R4, R5, R6, R7, R8, R9, R10, R11, HS0⟩, Hg⟩, Ho, ⟨%d0, H0⟩, ⟨%d1, H1⟩, ⟨%d2, H2⟩, ⟨%d3, H3⟩⟩
      iapply ((runFirst c (grid1.coords t) _ _ _ _ _ _ _ _ _ _ ((hcondFirst t).mpr h0) (fun h => h1 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [R1 R2 R3 R4 R5 R6 R7 R8 R9 R10 R11 HS0 Hg]
      · isplitr [Hg]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        unfold owns; iexists _; isplitr
        swap; · iexact HS0
        ipureintro; exact View.read_writes_of_cover _ _ _ _ _ (scoverFirst c _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat V c).leavesExact 3 t = owns (c : Thread nD τ) (ms3 t) fullShare ((dat V c).after 3 t) from by
        unfold Dat.leavesExact; rw [live_out t ((hcondLast t).mpr h1)], after_out]
      rw [outsAt_Last V c t h0 h1]
      unfold outLast soutLast; (try dsimp only)
      rw [PhiS_castSucc V c t, PhiS_pos V c _ _ hz]
      iintro ⟨⟨⟨R1, R2, R3, R4, R5, R6, R7, R8, R9, R10, R11, HS0⟩, Hg⟩, Ho, ⟨%d0, H0⟩, ⟨%d1, H1⟩, ⟨%d2, H2⟩, ⟨%d3, H3⟩⟩
      iapply ((runLast c (grid1.coords t) _ _ _ _ _ _ _ _ _ _ (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [R1 R2 R3 R4 R5 R6 R7 R8 R9 R10 R11 HS0 Hg]
      · isplitr [Hg]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        unfold owns; iexists _; isplitr
        swap; · iexact HS0
        ipureintro; exact View.read_writes_of_cover _ _ _ _ _ (scoverLast c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _ _)
    · rw [Dat.leavesExact_idle (dat V c) 3 t (idle_out t (fun h => h1 ((hcondLast t).mp h))) (noFlush_out t (fun h => h1 ((hcondLast t).mp h)))]
      rw [outsAt_Mid V c t h0 h1]
      unfold soutMid; (try dsimp only)
      rw [PhiS_castSucc V c t, PhiS_pos V c _ _ hz]
      iintro ⟨⟨⟨R1, R2, R3, R4, R5, R6, R7, R8, R9, R10, R11, HS0⟩, Hg⟩, Ho, ⟨%d0, H0⟩, ⟨%d1, H1⟩, ⟨%d2, H2⟩, ⟨%d3, H3⟩⟩
      iapply ((runMid c (grid1.coords t) _ _ _ _ _ _ _ _ _ _ (fun h => h0 ((hcondFirst t).mp h)) (fun h => h1 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 R7 R8 R9 R10 R11 HS0 Hg]
      · isplitr [Hg]
        swap; · iexact Hg
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        unfold owns; iexists _; isplitr
        swap; · iexact HS0
        ipureintro; exact View.read_writes_of_cover _ _ _ _ _ (scoverMid c _ _ _ _ _ _ _ _ _ _ _ _ _ _ _ _ _)
      isplitl [Ho]; · iexact Ho
      isplitl [H0]; · iexact H0
      isplitl [H1]; · iexact H1
      isplitl [H2]; · iexact H2
      iexists _; iexact H3

/-- The pipeline's obligation on the body, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives back what every region keeps: the scratch's named contents
    are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨R1, R2, R3, R4, R5, R6, R7, R8, R9, R10, R11, HS0⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexists _; iexact HS0

theorem hout (c : Dev nD) : (dat V c).Φ (Fin.last cfg1.N) ⊢ Pipeline.ΦA spec1 c :=
  Phi_out V c _ (by rw [Fin.val_last]; have : cfg1.N = 64 := N_1; omega)

end Cert.Kernel.AttnRegion

end
-- ==== Proof.WholeRunB.lean ====
/-
  The whole program: the projection region, then the attention region, with nothing on the host between.

  The contents of every unscoped buffer are followed from the launch through the two regions: a region leaves
  each of its windows' arrays at what its write-backs make of it and every other buffer as it found it. The
  second region is entered from what the first one left, so its query, key and value arrays ARE the first
  region's three output arrays. The run below says that every weakly fair execution terminates without a fault
  and ends with every unscoped buffer at the last of these contents; in particular the four arguments end as
  launched, and the result array ends at what the attention region's write-backs leave.
-/
import proofs.«132627_j31696858644695_1_alg».proof.Proof.ProjRegionB
import proofs.«132627_j31696858644695_1_alg».proof.Proof.AttnRegionB
import Idealize.ShloMosaic.Lib.Pipeline.RegionsLoop
import Idealize.ShloMosaic.Lib.Pipeline.FrameSuffix

set_option maxRecDepth 16384

noncomputable section

namespace Cert.Kernel.WholeRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch: what the projection region is entered from. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the projection region: its arrays at what its write-backs leave, every other buffer as entered. -/
def W1 (c : Dev nD) : Valuation τ sig (Elt F) :=
  Pipeline.withArrays spec0 c (W0 m ρ c) fun w => (ProjRegion.dat (V0 m ρ) c).arrAt w cfg0.N
theorem W1_arr (c : Dev nD) (w : Fin cfg0.W) :
    W1 m ρ c (Proc.devRef .tc (Pipeline.arrRef spec0 w)) = (ProjRegion.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (ProjRegion.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the attention region, likewise, from what the projection region left. -/
def W2 (c : Dev nD) : Valuation τ sig (Elt F) :=
  Pipeline.withArrays spec1 c (W1 m ρ c) fun w => (AttnRegion.dat (V1 m ρ) c).arrAt w cfg1.N
theorem W2_arr (c : Dev nD) (w : Fin cfg1.W) :
    W2 m ρ c (Proc.devRef .tc (Pipeline.arrRef spec1 w)) = (AttnRegion.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (AttnRegion.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- Argument 0 ends as launched: the second region does not stage it, the first reads it through an input window. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((ProjRegion.dat (V0 m ρ) c).arrAt_in 0 rfl _).trans (ProjRegion.A_eq (V0 m ρ) c 0))
    _ = m ((c : Thread nD τ).loc main_arg0) := rfl
/-- Argument 1 ends as launched: the second region does not stage it, the first reads it through an input window. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((ProjRegion.dat (V0 m ρ) c).arrAt_in 1 rfl _).trans (ProjRegion.A_eq (V0 m ρ) c 1))
    _ = m ((c : Thread nD τ).loc main_arg1) := rfl
/-- Argument 2 ends as launched: the second region does not stage it, the first reads it through an input window. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((ProjRegion.dat (V0 m ρ) c).arrAt_in 2 rfl _).trans (ProjRegion.A_eq (V0 m ρ) c 2))
    _ = m ((c : Thread nD τ).loc main_arg2) := rfl
/-- Argument 3 ends as launched: the second region does not stage it, the first reads it through an input window. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 3).trans (((ProjRegion.dat (V0 m ρ) c).arrAt_in 3 rfl _).trans (ProjRegion.A_eq (V0 m ρ) c 3))
    _ = m ((c : Thread nD τ).loc main_arg3) := rfl

/-- The result array ends at what the attention region's write-backs of its output window leave. -/
theorem W2_main_v1 (c : Dev nD) : W2 m ρ c (Proc.devRef .tc main_v1) = (AttnRegion.dat (V1 m ρ) c).arrAt 3 cfg1.N :=
  W2_arr m ρ c 3

/-! ## The proof data family and the thread state -/

/-- No pallas_call has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => ProjRegion.dat (V0 m ρ) c
  | ⟨1, _⟩ => fun c => AttnRegion.dat (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- THE PROJECTION REGION over the thread state: entered from every unscoped buffer at the launch contents, left
    at W1. -/
def regProj : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (ProjRegion.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE ATTENTION REGION over the thread state: entered from W1, left at W2. Its invariant starts as what
    every region keeps and ends, the scratch's contents forgotten, as the same. -/
def regAttn : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (AttnRegion.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m ρ 1 c).Φ 0 from AttnRegion.hin (V1 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from AttnRegion.hout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (regProj m ρ), .region (regAttn m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and ends with the result array at what the attention region's write-backs leave and the four argument
    arrays as launched. -/
theorem run : θ_run defs (onTc (τ := τ) (main (F := F))) ⟨m, fun _ => 0, ρ⟩ (fun r => ∀ c : Dev nD,
      r.2.mem ((c.tc : Thread nD τ).loc main_v1) = (AttnRegion.dat (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.Kernel.WholeRun

end
-- ==== Proof.Spec.lean ====
/-
  The function both programs compute, entry by entry, on the extended reals.

  With x : [4096, 1024] and q, k, v : [1024, 1024]:
    proj x w (r, d)  = Σ_e x[r, e] · w[e, d]                      (the three projections x·q, x·k, x·v)
    score (r, n)     = Σ_d (x·q)[r, d] · (x·k)[n, d]              (queries against keys, the keys transposed)
    mix (r, c)       = Σ_n (score (r, n) · 2⁻⁵) · (x·v)[n, c]     (all 4096 keys; 2⁻⁵ = 1/√1024, kept as its binary word)
    result (r, c)    = exp (mix (r, c) − M_r) / Σ_c' exp (mix (r, c') − M_r),   M_r = max (−∞, max_c' mix (r, c'))
  that is, a row softmax taken AFTER the product with the values. Nothing here needs a finite entry: the
  two programs differ only in how the sum over the keys is grouped and in writing the scale as a product or
  as a quotient, and both are laws of the extended reals without exception.
-/
import Idealize.ShloMosaic.PureOps.Ideal
import Idealize.ShloMosaic.Lib.ValueIdx

noncomputable section

namespace Cert.AttnSpec

open Idealize.ShloMosaic Idealize.ShloMosaic.ValueIdx

/-- An a × b array of extended reals, indexed as the printed programs index theirs. -/
abbrev Arr (a b : Nat) : Type := (⟨2, ![a, b]⟩ : Shape).Idx → EReal

/-- The scale 2⁻⁵ = 1/32 = 1/√1024, as the binary word the kernel multiplies by. -/
def scale : EReal := Ideal.ofBits .f32 0x3D000000#32

/-- −∞, as the binary word both programs start their row maximum from. -/
def negInf : EReal := Ideal.ofBits .f32 0xFF800000#32

/-- A projection x·w at (r, d). -/
def proj (x : Arr 4096 1024) (w : Arr 1024 1024) (r : Fin 4096) (d : Fin 1024) : EReal :=
  ∑ e : Fin 1024, x (ix2 r e) * w (ix2 e d)

/-- Query r against key n: the inner product of row r of x·q with row n of x·k. -/
def score (x : Arr 4096 1024) (q k : Arr 1024 1024) (r n : Fin 4096) : EReal :=
  ∑ d : Fin 1024, proj x q r d * proj x k n d

/-- The scaled scores times the values, at (r, c): a sum over all 4096 keys. -/
def mix (x : Arr 4096 1024) (q k v : Arr 1024 1024) (r : Fin 4096) (c : Fin 1024) : EReal :=
  ∑ n : Fin 4096, (score x q k r n * scale) * proj x v n c

/-- The maximum of a row of 1024 entries, started from −∞ and then compared with −∞ once more
    (as both programs do). -/
def rowMax (z : Fin 1024 → EReal) : EReal :=
  max negInf ((Finset.univ : Finset (Fin 1024)).fold max negInf z)

/-- The softmax of a row of 1024 entries, at column c. -/
def softRow (z : Fin 1024 → EReal) (c : Fin 1024) : EReal :=
  Ideal.div (Ideal.exp (z c - rowMax z)) (∑ c' : Fin 1024, Ideal.exp (z c' - rowMax z))

/-- The whole result: row r is the softmax of row r of `mix`. -/
def result (x : Arr 4096 1024) (q k v : Arr 1024 1024) : Arr 4096 1024 :=
  fun j => softRow (fun c => mix x q k v (j 0) c) (j 1)

theorem result_ix2 (x : Arr 4096 1024) (q k v : Arr 1024 1024) (r : Fin 4096) (c : Fin 1024) :
    result x q k v (ix2 r c) = softRow (fun c' => mix x q k v r c') c := rfl

end Cert.AttnSpec

end
-- ==== Proof.RefValue.lean ====
/-
  The reference program's result, entry by entry, is the specification's row softmax.

  The reference computes the three projections x·q, x·k, x·v, the scores (x·q)·(x·k)ᵀ divided by √1024,
  their product with x·v, and then a softmax along each row of that product. Read at an entry, every stage is
  a finite sum, a quotient, a maximum or an exponential of entries of earlier stages; followed from the result
  back to the arguments these are the specification's formulas term for term, except in one place: the
  reference divides each score by √1024 where the specification multiplies it by the word of 2⁻⁵. Over the
  extended reals the two agree for every score, finite or not, because √1024 is the nonzero real 32 and a
  quotient by a nonzero real is the product with its reciprocal.
-/
import proofs.«132627_j31696858644695_1_alg».proof.Proof.Gen.ReferenceIdeal.Read
import proofs.«132627_j31696858644695_1_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- A 4096 × 1024 array of ideal values, as the reference's stages take it. -/
abbrev X : Type := (⟨S4096x1024, .f32⟩ : BufTy).Contents (Elt Ideal)
/-- A 1024 × 1024 array of ideal values. -/
abbrev W : Type := (⟨S1024x1024, .f32⟩ : BufTy).Contents (Elt Ideal)

/-! ## The two literal words of the scale -/

/-- The word 0x44800000 denotes the real 1024. -/
theorem ofBits_1024 : Ideal.ofBits .f32 0x44800000#32 = ((1024 : ℝ) : EReal) := by
  simp [Ideal.ofBits, Ideal.ieee, -EReal.coe_mul]; norm_num

/-- The word 0x3D000000 denotes the real 1/32. -/
theorem ofBits_inv32 : Ideal.ofBits .f32 0x3D000000#32 = ((1 / 32 : ℝ) : EReal) := by
  simp [Ideal.ofBits, Ideal.ieee, -EReal.coe_mul]; norm_num

/-- √1024 = 32. -/
theorem sqrt_1024 : Real.sqrt 1024 = 32 := by
  rw [show (1024 : ℝ) = 32 * 32 by norm_num]
  exact Real.sqrt_mul_self (by norm_num)

/-- Dividing by √1024 is multiplying by 2⁻⁵, for every extended real. -/
theorem div_sqrt_1024 (a : EReal) :
    Ideal.div a (Ideal.sqrt (Ideal.ofBits .f32 0x44800000#32)) = a * Ideal.ofBits .f32 0x3D000000#32 := by
  rw [ofBits_1024, ofBits_inv32, Ideal.sqrt_coe, if_neg (by norm_num), sqrt_1024]
  exact Ideal.div_coe (by norm_num) a

/-! ## The index functions of the generated reading lemmas, at an entry given by its coordinates -/

theorem lidx_v0 (r : Fin 4096) (d e : Fin 1024) : lidx_main_v0 (ix2 r d) e = ix2 r e := by
  funext a; match a with | ⟨0, _⟩ => rfl | ⟨1, _⟩ => rfl
theorem ridx_v0 (r : Fin 4096) (d e : Fin 1024) : ridx_main_v0 (ix2 r d) e = ix2 e d := by
  funext a; match a with | ⟨0, _⟩ => rfl | ⟨1, _⟩ => rfl
theorem lidx_v1 (r : Fin 4096) (d e : Fin 1024) : lidx_main_v1 (ix2 r d) e = ix2 r e := by
  funext a; match a with | ⟨0, _⟩ => rfl | ⟨1, _⟩ => rfl
theorem ridx_v1 (r : Fin 4096) (d e : Fin 1024) : ridx_main_v1 (ix2 r d) e = ix2 e d := by
  funext a; match a with | ⟨0, _⟩ => rfl | ⟨1, _⟩ => rfl
theorem lidx_v2 (r : Fin 4096) (d e : Fin 1024) : lidx_main_v2 (ix2 r d) e = ix2 r e := by
  funext a; match a with | ⟨0, _⟩ => rfl | ⟨1, _⟩ => rfl
theorem ridx_v2 (r : Fin 4096) (d e : Fin 1024) : ridx_main_v2 (ix2 r d) e = ix2 e d := by
  funext a; match a with | ⟨0, _⟩ => rfl | ⟨1, _⟩ => rfl
theorem idx_v4 (d : Fin 1024) (n : Fin 4096) : idx_main_v4 (ix2 d n) = ix2 n d := by
  funext a; match a with | ⟨0, _⟩ => rfl | ⟨1, _⟩ => rfl
theorem lidx_v5 (r n : Fin 4096) (d : Fin 1024) : lidx_main_v5 (ix2 r n) d = ix2 r d := by
  funext a; match a with | ⟨0, _⟩ => rfl | ⟨1, _⟩ => rfl
theorem ridx_v5 (r n : Fin 4096) (d : Fin 1024) : ridx_main_v5 (ix2 r n) d = ix2 d n := by
  funext a; match a with | ⟨0, _⟩ => rfl | ⟨1, _⟩ => rfl
theorem lidx_v8 (r n : Fin 4096) (c : Fin 1024) : lidx_main_v8 (ix2 r c) n = ix2 r n := by
  funext a; match a with | ⟨0, _⟩ => rfl | ⟨1, _⟩ => rfl
theorem ridx_v8 (r n : Fin 4096) (c : Fin 1024) : ridx_main_v8 (ix2 r c) n = ix2 n c := by
  funext a; match a with | ⟨0, _⟩ => rfl | ⟨1, _⟩ => rfl
theorem idx_v12 (r : Fin 4096) (u : Fin 1) : idx_main_v12 (ix2 r u) = ix1 r := by
  funext a; match a with | ⟨0, _⟩ => rfl
theorem idx_v13 (r : Fin 4096) (c : Fin 1024) : idx_main_v13 (ix2 r c) = ix2 r (0 : Fin 1) := by
  funext a; match a with | ⟨0, _⟩ => rfl | ⟨1, _⟩ => rfl
theorem idx_v16 (r : Fin 4096) (c : Fin 1024) : idx_main_v16 (ix1 r) c = ix2 r c := by
  funext a; match a with | ⟨0, _⟩ => rfl | ⟨1, _⟩ => rfl
theorem idx_v17 (r : Fin 4096) (u : Fin 1) : idx_main_v17 (ix2 r u) = ix1 r := by
  funext a; match a with | ⟨0, _⟩ => rfl
theorem idx_v18 (r : Fin 4096) (c : Fin 1024) : idx_main_v18 (ix2 r c) = ix2 r (0 : Fin 1) := by
  funext a; match a with | ⟨0, _⟩ => rfl | ⟨1, _⟩ => rfl

/-! ## The stages, from the arguments to the result -/

/-- The first projection is x·q. -/
theorem v0_ix2 (x : X) (q : W) (r : Fin 4096) (d : Fin 1024) :
    val_main_v0 (F := Ideal) x q (ix2 r d) = AttnSpec.proj x q r d := by
  rw [val_main_v0_apply]
  exact Finset.sum_congr rfl fun e _ => by rw [lidx_v0, ridx_v0]

/-- The second projection is x·k. -/
theorem v1_ix2 (x : X) (k : W) (r : Fin 4096) (d : Fin 1024) :
    val_main_v1 (F := Ideal) x k (ix2 r d) = AttnSpec.proj x k r d := by
  rw [val_main_v1_apply]
  exact Finset.sum_congr rfl fun e _ => by rw [lidx_v1, ridx_v1]

/-- The third projection is x·v. -/
theorem v2_ix2 (x : X) (v : W) (r : Fin 4096) (d : Fin 1024) :
    val_main_v2 (F := Ideal) x v (ix2 r d) = AttnSpec.proj x v r d := by
  rw [val_main_v2_apply]
  exact Finset.sum_congr rfl fun e _ => by rw [lidx_v2, ridx_v2]

/-- The transposed keys: entry (d, n) is (x·k)[n, d]. -/
theorem v4_ix2 (x : X) (k : W) (d : Fin 1024) (n : Fin 4096) :
    val_main_v4 (F := Ideal) x k (ix2 d n) = AttnSpec.proj x k n d := by
  rw [val_main_v4_apply, idx_v4, v1_ix2]

/-- The unscaled scores. -/
theorem v5_ix2 (x : X) (q k : W) (r n : Fin 4096) :
    val_main_v5 (F := Ideal) x q k (ix2 r n) = AttnSpec.score x q k r n := by
  rw [val_main_v5_apply]
  exact Finset.sum_congr rfl fun d _ => by rw [lidx_v5, ridx_v5, v0_ix2, v4_ix2]

/-- The divisor, everywhere √1024 as the ideal square root of the word of 1024. -/
theorem v6_at (i : S4096x4096.Idx) :
    val_main_v6 (F := Ideal) i = Ideal.sqrt (Ideal.ofBits .f32 0x44800000#32) := by
  rw [val_main_v6_apply, val_main_v3_apply, val_main_cst_apply]
  rfl

/-- The scaled scores: the quotient by √1024 is the product with the word of 2⁻⁵. -/
theorem v7_ix2 (x : X) (q k : W) (r n : Fin 4096) :
    val_main_v7 (F := Ideal) x q k (ix2 r n) = AttnSpec.score x q k r n * AttnSpec.scale := by
  rw [val_main_v7_apply, v5_ix2, v6_at, Ideal.hostDivf_def, div_sqrt_1024]
  rfl

/-- The scaled scores times the values. -/
theorem v8_ix2 (x : X) (q k v : W) (r : Fin 4096) (c : Fin 1024) :
    val_main_v8 (F := Ideal) x q k v (ix2 r c) = AttnSpec.mix x q k v r c := by
  rw [val_main_v8_apply]
  exact Finset.sum_congr rfl fun n _ => by rw [lidx_v8, ridx_v8, v7_ix2, v2_ix2]

/-! ## The row maximum -/

/-- The literal shapes' reduction facts, in the form the inserted index is defined from. -/
theorem reduces_rows : S4096x1024.Reduces [1] S4096 := by decide

/-- Row r with column c put back on the reduced axis is (r, c). -/
theorem lift_ix2 (r : Fin 4096) (c : Fin (S4096x1024.size 1)) :
    reduces_rows.lift (ix1 r) c = ix2 r (⟨c.val, c.isLt⟩ : Fin 1024) := by
  funext a; apply Fin.ext
  match a with
  | ⟨0, _⟩ => rfl
  | ⟨1, _⟩ => rfl

/-- The reduction with a maximum, started from the word of −∞: at row r, the maximum of row r of the mixed
    scores over its 1024 columns, folded from −∞. -/
theorem v9_ix1 (x : X) (q k v : W) (r : Fin 4096) :
    val_main_v9 (F := Ideal) x q k v (ix1 r)
      = (Finset.univ : Finset (Fin 1024)).fold max AttnSpec.negInf (fun c => AttnSpec.mix x q k v r c) := by
  unfold val_main_v9
  rw [Host.reduce_eq_fold_single FloatOps.maximumf _ _ _ reduces_rows h_S_]
  have hf : (val_main_v8 (F := Ideal) x q k v ∘ reduces_rows.lift (ix1 r))
      = fun c : Fin 1024 => AttnSpec.mix x q k v r c :=
    funext fun c => by
      show val_main_v8 (F := Ideal) x q k v (reduces_rows.lift (ix1 r) c) = _
      rw [lift_ix2, v8_ix2]
      rfl
  exact congrArg (fun f => Finset.fold max (Ideal.ofBits .f32 0xFF800000#32) f (Finset.univ : Finset (Fin 1024))) hf

/-- The vector the row maximum is compared with once more: −∞ everywhere. -/
theorem v10_at (i : S4096.Idx) : val_main_v10 (F := Ideal) i = AttnSpec.negInf := by
  rw [val_main_v10_apply, val_main_cst_1_apply]
  rfl

/-- The row maximum as the specification writes it. -/
theorem v11_ix1 (x : X) (q k v : W) (r : Fin 4096) :
    val_main_v11 (F := Ideal) x q k v (ix1 r) = AttnSpec.rowMax (fun c => AttnSpec.mix x q k v r c) := by
  rw [val_main_v11_apply, v10_at, v9_ix1, Ideal.maximumf_def]
  rfl

/-- The row maximum repeated along its row. -/
theorem v13_ix2 (x : X) (q k v : W) (r : Fin 4096) (c : Fin 1024) :
    val_main_v13 (F := Ideal) x q k v (ix2 r c) = AttnSpec.rowMax (fun c' => AttnSpec.mix x q k v r c') := by
  rw [val_main_v13_apply, idx_v13, val_main_v12_apply, idx_v12, v11_ix1]

/-! ## The exponentials, their row sums and the quotient -/

/-- The exponential of an entry less its row's maximum. -/
theorem v15_ix2 (x : X) (q k v : W) (r : Fin 4096) (c : Fin 1024) :
    val_main_v15 (F := Ideal) x q k v (ix2 r c)
      = Ideal.exp (AttnSpec.mix x q k v r c - AttnSpec.rowMax (fun c' => AttnSpec.mix x q k v r c')) := by
  rw [val_main_v15_apply, val_main_v14_apply, v8_ix2, v13_ix2, Ideal.subf_def, Ideal.hostUnary_exp_def]

/-- The sum of a row's exponentials: the initial word of 0 adds nothing. -/
theorem v16_ix1 (x : X) (q k v : W) (r : Fin 4096) :
    val_main_v16 (F := Ideal) x q k v (ix1 r)
      = ∑ c' : Fin 1024, Ideal.exp (AttnSpec.mix x q k v r c' - AttnSpec.rowMax (fun c'' => AttnSpec.mix x q k v r c'')) := by
  rw [val_main_v16_apply, val_main_cst_2_apply, Ideal.ofBits_def, Ideal.ofBits_zero_f32, zero_add]
  exact Finset.sum_congr rfl fun c' _ => by rw [idx_v16, v15_ix2]

/-- The row sum repeated along its row. -/
theorem v18_ix2 (x : X) (q k v : W) (r : Fin 4096) (c : Fin 1024) :
    val_main_v18 (F := Ideal) x q k v (ix2 r c)
      = ∑ c' : Fin 1024, Ideal.exp (AttnSpec.mix x q k v r c' - AttnSpec.rowMax (fun c'' => AttnSpec.mix x q k v r c'')) := by
  rw [val_main_v18_apply, idx_v18, val_main_v17_apply, idx_v17, v16_ix1]

/-- The result at (r, c): the softmax of row r of the mixed scores, at column c. -/
theorem v19_ix2 (x : X) (q k v : W) (r : Fin 4096) (c : Fin 1024) :
    val_main_v19 (F := Ideal) x q k v (ix2 r c) = AttnSpec.softRow (fun c' => AttnSpec.mix x q k v r c') c := by
  rw [val_main_v19_apply, v15_ix2, v18_ix2, Ideal.hostDivf_def]
  rfl

/-- THE REFERENCE IS THE SPECIFICATION: at the ideal values the reference program's result is, entry by entry,
    the row softmax of the scaled scores times the values. -/
theorem ref_result (x : (⟨S4096x1024, .f32⟩ : BufTy).Contents (Elt Ideal))
    (q k v : (⟨S1024x1024, .f32⟩ : BufTy).Contents (Elt Ideal)) :
    Cert.ReferenceIdeal.Read.val_main_v19 (F := Ideal) x q k v = Cert.AttnSpec.result x q k v := by
  funext j
  obtain ⟨r, c, rfl⟩ : ∃ (r : Fin 4096) (c : Fin 1024), j = ix2 r c := ⟨j 0, j 1, eq_ix2 j⟩
  rw [AttnSpec.result_ix2]
  exact v19_ix2 x q k v r c

end Cert.ReferenceIdeal.RefValue

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.PayloadAt.lean ====
/-
  The kernel's stored values read at one entry, over the extended reals.

  Each value the two kernel bodies store is one pure term of the vectors loaded before it. Read at an entry (p, c):
    a projection block        is  Σ_e x[p, e] · w[e, c];
    the accumulator's reset   is  0;
    the accumulator's update  is  acc[p, c] + Σ_n ((Σ_d q[p, d] · k[n, d]) · 2⁻⁵) · v[n, c];
    the last step             is  the row softmax of the accumulator's row p, at column c.
  Every operation in these terms is exact on the extended reals, so each equation is a matter of reading the
  operations at an index: the pointwise ones definitionally, a matrix product as the sum over its one contracted
  coordinate, a row reduction as the sum (or the fold of max) over the row's coordinates, and the layout changes
  (an identity cast, a transpose, a column cast, a column broadcast) as the operand at the matching index.
-/
import proofs.«132627_j31696858644695_1_alg».proof.Proof.Gen.KernelIdeal.Skeleton
import proofs.«132627_j31696858644695_1_alg».proof.Proof.Spec
import proofs.«132627_j31696858644695_1_alg».proof.Proof.LibContractPlain
import proofs.«132627_j31696858644695_1_alg».proof.Proof.LibLayout
import Idealize.ShloMosaic.Lib.ValueIdx
import Idealize.ShloMosaic.Lib.Pipeline.Value
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx

/-! ## The projections -/

/-- A projection block at (p, d): row p of the loaded rows of x against column d of the weight. -/
theorem proj_pay1_apply (v0 : Vec Ideal S128x1024 .f32) (v1 : Vec Ideal S1024x1024 .f32) (p : Fin 128) (d : Fin 1024) :
    k0_pay1 (F := Ideal) v0 v1 (ix2 p d) = ∑ e : Fin 1024, v0 (ix2 p e) * v1 (ix2 e d) := by
  unfold k0_pay1
  exact Cert.LibContractPlain.matmulPlain_zero_apply 128 1024 1024 _ (some .fp32) v0 v1 p d

theorem proj_pay2_apply (v0 : Vec Ideal S128x1024 .f32) (v4 : Vec Ideal S1024x1024 .f32) (p : Fin 128) (d : Fin 1024) :
    k0_pay2 (F := Ideal) v0 v4 (ix2 p d) = ∑ e : Fin 1024, v0 (ix2 p e) * v4 (ix2 e d) := by
  unfold k0_pay2
  exact Cert.LibContractPlain.matmulPlain_zero_apply 128 1024 1024 _ (some .fp32) v0 v4 p d

theorem proj_pay3_apply (v0 : Vec Ideal S128x1024 .f32) (v7 : Vec Ideal S1024x1024 .f32) (p : Fin 128) (d : Fin 1024) :
    k0_pay3 (F := Ideal) v0 v7 (ix2 p d) = ∑ e : Fin 1024, v0 (ix2 p e) * v7 (ix2 e d) := by
  unfold k0_pay3
  exact Cert.LibContractPlain.matmulPlain_zero_apply 128 1024 1024 _ (some .fp32) v0 v7 p d

/-! ## The accumulator -/

/-- The transposed keys at (d, n) are the keys at (n, d). -/
theorem transpose_keys_apply (v : FVec Ideal S512x1024 .f32) (h : S512x1024.Transposes [1, 0] S1024x512)
    (d : Fin 1024) (n : Fin 512) : transpose S1024x512 [1, 0] v h (ix2 d n) = v (ix2 n d) :=
  transpose_apply [1, 0] v h (ix2 d n) (ix2 n d) fun b => match b with | ⟨0, _⟩ => rfl | ⟨1, _⟩ => rfl

/-- The accumulator's update at (p, c): what was there, plus the scaled scores of query row p against the block's
    512 keys times the block's values. -/
theorem acc_pay_apply (v3 v5 v11 v12 : Vec Ideal S512x1024 .f32) (p : Fin 512) (c : Fin 1024) :
    k1_pay2 (F := Ideal) v3 v5 v11 v12 (ix2 p c)
      = v11 (ix2 p c) + ∑ n : Fin 512, ((∑ d : Fin 1024, v3 (ix2 p d) * v5 (ix2 n d)) * Cert.AttnSpec.scale) * v12 (ix2 n c) := by
  unfold k1_pay2
  simp only [shapeCast_self]
  rw [addf_apply]
  refine congrArg (v11 (ix2 p c) + ·) ?_
  refine (Cert.LibContractPlain.matmulPlain_zero_apply 512 512 1024 _ (some .fp32) _ v12 p c).trans ?_
  refine Finset.sum_congr rfl fun n _ => ?_
  refine congrArg (· * v12 (ix2 n c)) ?_
  rw [mulf_apply, broadcast_apply]
  refine congrArg₂ (· * ·) ?_ rfl
  refine (Cert.LibContractPlain.matmulPlain_zero_apply 512 1024 512 _ (some .fp32) v3 _ p n).trans ?_
  refine Finset.sum_congr rfl fun d _ => ?_
  rw [transpose_keys_apply]

/-! ## The last step: the row softmax -/

/-- The index over row p with column k inserted on the reduced axis is (p, k). -/
theorem lift_row (h : S512x1024.Reduces [1] S512) (p : Fin 512) (k : Fin 1024) : h.lift (ix1 p) k = ix2 p k := by
  funext ax; apply Fin.ext
  match ax with
  | ⟨0, _⟩ => rfl
  | ⟨1, _⟩ => rfl

/-- A [512] vector viewed as a column and repeated along the rows reads, at (p, c), its entry p. -/
theorem col_apply (w : FVec Ideal S512 .f32) (h1 : S512.ShapeCasts S512x1) (h2 : S512x1.Broadcasts S512x1024)
    (p : Fin 512) (c : Fin 1024) : broadcastTo S512x1024 (shapeCast S512x1 w h1) h2 (ix2 p c) = w (ix1 p) :=
  (Cert.Attn.Layout.broadcastTo_a1_ab_apply _ h2 p c).trans (Cert.Attn.Layout.shapeCast_a_a1_apply w h1 p 0)

/-- The row sum at p: the sum over the row's 1024 columns. -/
theorem rowSum_apply (src : FVec Ideal S512x1024 .f32) (h : S512x1024.Reduces [1] S512) (hφ : FKind.Formats .f32)
    (hacc : (0x00000000#32 : BitVec 32) = 0x00000000#32) (p : Fin 512) :
    multiReduction (F := Ideal) .add [1] S512 src 0x00000000#32 h hφ hacc (ix1 p) = ∑ c' : Fin 1024, src (ix2 p c') := by
  refine (Ideal.multiReduction_add_single src 0x00000000#32 h hφ hacc (ix1 p)).trans ?_
  exact Finset.sum_congr rfl fun k _ => congrArg src (lift_row h p k)

/-- The row maximum at p: the fold of max from −∞ over the row's 1024 columns. -/
theorem rowFold_apply (src : FVec Ideal S512x1024 .f32) (h : S512x1024.Reduces [1] S512) (hφ : FKind.Formats .f32)
    (hacc : (0xFF800000#32 : BitVec 32) = 0xFF800000#32) (p : Fin 512) :
    multiReduction (F := Ideal) .maximumf [1] S512 src 0xFF800000#32 h hφ hacc (ix1 p)
      = (Finset.univ : Finset (Fin 1024)).fold max Cert.AttnSpec.negInf (fun c' => src (ix2 p c')) := by
  refine (Ideal.multiReduction_maximumf_single src 0xFF800000#32 h hφ hacc (ix1 p)).trans ?_
  have e : src ∘ h.lift (ix1 p) = fun c' : Fin 1024 => src (ix2 p c') := funext fun k => congrArg src (lift_row h p k)
  rw [e]
  rfl

/-- The row maximum compared with −∞ once more, at p: the specification's row maximum of row p. -/
theorem rowMax_apply (src : FVec Ideal S512x1024 .f32) (h : S512x1024.Reduces [1] S512) (hφ : FKind.Formats .f32)
    (hacc : (0xFF800000#32 : BitVec 32) = 0xFF800000#32) (p : Fin 512) :
    maximumf (broadcast S512 (FloatOps.ofBits (F := Ideal) .f32 0xFF800000#32))
        (multiReduction (F := Ideal) .maximumf [1] S512 src 0xFF800000#32 h hφ hacc) (ix1 p)
      = Cert.AttnSpec.rowMax (fun c' => src (ix2 p c')) := by
  rw [maximumf_apply, broadcast_apply, rowFold_apply]
  rfl

/-- The exponential of a [512, 1024] array minus a column of row values, at (p, c). -/
theorem expSub_apply (v : FVec Ideal S512x1024 .f32) (w : FVec Ideal S512 .f32) (h1 : S512.ShapeCasts S512x1)
    (h2 : S512x1.Broadcasts S512x1024) (p : Fin 512) (c : Fin 1024) :
    exp (subf v (broadcastTo S512x1024 (shapeCast S512x1 w h1) h2)) (ix2 p c) = Ideal.exp (v (ix2 p c) - w (ix1 p)) := by
  show Ideal.exp (v (ix2 p c) - broadcastTo S512x1024 (shapeCast S512x1 w h1) h2 (ix2 p c)) = _
  rw [col_apply]

/-- The last step at (p, c): the softmax of the accumulator's row p, at column c. -/
theorem soft_pay_apply (v22 : Vec Ideal S512x1024 .f32) (p : Fin 512) (c : Fin 1024) :
    k1_pay3 (F := Ideal) v22 (ix2 p c) = Cert.AttnSpec.softRow (fun c' => v22 (ix2 p c')) c := by
  unfold k1_pay3
  simp only [divf_apply, col_apply]
  unfold Cert.AttnSpec.softRow
  refine congrArg₂ Ideal.div ?_ ?_
  · refine (expSub_apply v22 _ _ _ p c).trans ?_
    exact congrArg (fun m => Ideal.exp (v22 (ix2 p c) - m)) (rowMax_apply v22 _ _ _ p)
  · refine (rowSum_apply _ _ _ _ p).trans ?_
    refine Finset.sum_congr rfl fun c' _ => ?_
    refine (expSub_apply v22 _ _ _ p c').trans ?_
    exact congrArg (fun m => Ideal.exp (v22 (ix2 p c') - m)) (rowMax_apply v22 _ _ _ p)

/-! ## The accumulator's reset -/

/-- The value the first key block's step stores before accumulating is 0 everywhere. -/
theorem zero_pay_apply (j : S512x1024.Idx) : k1_pay1 (F := Ideal) j = 0 := by
  unfold k1_pay1
  simp only [shapeCast_self]
  exact Ideal.ofBits_zero_f32

end Cert.KernelIdeal.PayloadAt

end
-- ==== Proof.ProjValue.lean ====
/-
  The projection region's three arrays after the region: x·q, x·k and x·v.

  The region visits 32 points. At point t it holds rows [128 t, 128 t + 128) of x and the whole of one weight
  matrix w, and writes back, into rows [128 t, 128 t + 128) of the output array, the product of the two: entry
  (p, d) of the block is Σ_e x[128 t + p, e] · w[e, d]. That is entry (128 t + p, d) of the one 4096 × 1024
  array x·w, so what every point writes back is its own block of x·w; the 32 blocks tile the array's rows (row
  r lies in block r / 128), so after the region the array is x·w everywhere, as a function of what the four
  argument arrays held when the region was entered.
-/
import proofs.«132627_j31696858644695_1_alg».proof.Proof.ProjRegionI
import proofs.«132627_j31696858644695_1_alg».proof.Proof.PayloadAt
import proofs.«132627_j31696858644695_1_alg».proof.Proof.Spec
import Idealize.ShloMosaic.Lib.Pipeline.Value
import Idealize.ShloMosaic.Lib.ValueIdx

noncomputable section

namespace Cert.KernelIdeal.ProjValue

open Cert.KernelIdeal Cert.KernelIdeal.Gen

open Idealize.ShloMosaic Idealize.ShloMosaic.TcCoe Idealize.ShloMosaic.ValueIdx
open Idealize.SL Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The whole 4096 × 1024 product x·w, entry by entry. -/
abbrev xw (x : S4096x1024.Idx → Elt Ideal .f32) (w : S1024x1024.Idx → Elt Ideal .f32) : S4096x1024.Idx → Elt Ideal .f32 :=
  fun j => Cert.AttnSpec.proj x w (j 0) (j 1)

theorem zeros : (![0, 0] : Fin 2 → Nat) = fun _ => 0 := funext fun a => by fin_cases a <;> rfl

/-! ## The printed index maps, decided over the 32 points -/

/-- The row-blocked windows (x and the three outputs) are at block (t, 0) at point t. -/
theorem index_rows : ∀ t : Fin cfg0.N,
    win0_0.index t (0 : Fin 2) = t.val ∧ win0_0.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The three weight windows are at block (0, 0), their whole array, at every point. -/
theorem index_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row p of block t is a row of the array. -/
theorem row_lt (t : Fin cfg0.N) (p : Fin 128) : t.val * 128 + p.val < 4096 := by
  have ht : t.val < 32 := Nat.lt_of_lt_of_eq t.isLt N_0
  have hp := p.isLt
  omega

/-! ## The input blocks read at an entry -/

/-- The block of x at point t, at (p, e): x at row 128 t + p. -/
theorem xblk_apply (c : Dev nD) (t : Fin cfg0.N) (p : Fin 128) (e : Fin 1024) :
    ProjRegion.iblk V c 0 t (ix2 p e) = V c main_arg0 (ix2 (⟨t.val * 128 + p.val, row_lt t p⟩ : Fin 4096) e) := by
  unfold ProjRegion.iblk
  show V c main_arg0 (((cfg0.win 0).blk t).view.emb (ix2 p e)) = _
  refine congrArg (V c main_arg0) (funext fun a => Fin.ext ?_)
  obtain ⟨h0, h1, -⟩ := index_rows t
  match a with
  | ⟨0, _⟩ => show win0_0.index t (0 : Fin 2) * 128 + 1 * p.val = t.val * 128 + p.val; rw [h0]; omega
  | ⟨1, _⟩ => show win0_0.index t (1 : Fin 2) * 1024 + 1 * e.val = e.val; rw [h1]; omega

/-- The block of q at every point is the whole of q. -/
theorem qblk_apply (c : Dev nD) (t : Fin cfg0.N) (e d : Fin 1024) :
    ProjRegion.iblk V c 1 t (ix2 e d) = V c main_arg1 (ix2 e d) := by
  unfold ProjRegion.iblk
  show V c main_arg1 (((cfg0.win 1).blk t).view.emb (ix2 e d)) = _
  refine congrArg (V c main_arg1) (funext fun a => Fin.ext ?_)
  obtain ⟨h0, h1, -⟩ := index_whole t
  match a with
  | ⟨0, _⟩ => show win0_1.index t (0 : Fin 2) * 1024 + 1 * e.val = e.val; rw [h0]; omega
  | ⟨1, _⟩ => show win0_1.index t (1 : Fin 2) * 1024 + 1 * d.val = d.val; rw [h1]; omega

/-- The block of k at every point is the whole of k. -/
theorem kblk_apply (c : Dev nD) (t : Fin cfg0.N) (e d : Fin 1024) :
    ProjRegion.iblk V c 2 t (ix2 e d) = V c main_arg2 (ix2 e d) := by
  unfold ProjRegion.iblk
  show V c main_arg2 (((cfg0.win 2).blk t).view.emb (ix2 e d)) = _
  refine congrArg (V c main_arg2) (funext fun a => Fin.ext ?_)
  obtain ⟨-, -, h0, h1, -⟩ := index_whole t
  match a with
  | ⟨0, _⟩ => show win0_2.index t (0 : Fin 2) * 1024 + 1 * e.val = e.val; rw [h0]; omega
  | ⟨1, _⟩ => show win0_2.index t (1 : Fin 2) * 1024 + 1 * d.val = d.val; rw [h1]; omega

/-- The block of v at every point is the whole of v. -/
theorem vblk_apply (c : Dev nD) (t : Fin cfg0.N) (e d : Fin 1024) :
    ProjRegion.iblk V c 3 t (ix2 e d) = V c main_arg3 (ix2 e d) := by
  unfold ProjRegion.iblk
  show V c main_arg3 (((cfg0.win 3).blk t).view.emb (ix2 e d)) = _
  refine congrArg (V c main_arg3) (funext fun a => Fin.ext ?_)
  obtain ⟨-, -, -, -, h0, h1⟩ := index_whole t
  match a with
  | ⟨0, _⟩ => show win0_3.index t (0 : Fin 2) * 1024 + 1 * e.val = e.val; rw [h0]; omega
  | ⟨1, _⟩ => show win0_3.index t (1 : Fin 2) * 1024 + 1 * d.val = d.val; rw [h1]; omega

/-- The output block of point t, at (p, d), sits in its array at (128 t + p, d): the first output's, -/
theorem qout_emb (t : Fin cfg0.N) (p : Fin 128) (d : Fin 1024) :
    ((cfg0.win 4).blk t).view.emb (ix2 p d) = ix2 (⟨t.val * 128 + p.val, row_lt t p⟩ : Fin 4096) d := by
  refine funext fun a => Fin.ext ?_
  obtain ⟨-, -, h0, h1, -⟩ := index_rows t
  match a with
  | ⟨0, _⟩ => show win0_4.index t (0 : Fin 2) * 128 + 1 * p.val = t.val * 128 + p.val; rw [h0]; omega
  | ⟨1, _⟩ => show win0_4.index t (1 : Fin 2) * 1024 + 1 * d.val = d.val; rw [h1]; omega

/-- the second output's, -/
theorem kout_emb (t : Fin cfg0.N) (p : Fin 128) (d : Fin 1024) :
    ((cfg0.win 5).blk t).view.emb (ix2 p d) = ix2 (⟨t.val * 128 + p.val, row_lt t p⟩ : Fin 4096) d := by
  refine funext fun a => Fin.ext ?_
  obtain ⟨-, -, -, -, h0, h1, -⟩ := index_rows t
  match a with
  | ⟨0, _⟩ => show win0_5.index t (0 : Fin 2) * 128 + 1 * p.val = t.val * 128 + p.val; rw [h0]; omega
  | ⟨1, _⟩ => show win0_5.index t (1 : Fin 2) * 1024 + 1 * d.val = d.val; rw [h1]; omega

/-- and the third output's. -/
theorem vout_emb (t : Fin cfg0.N) (p : Fin 128) (d : Fin 1024) :
    ((cfg0.win 6).blk t).view.emb (ix2 p d) = ix2 (⟨t.val * 128 + p.val, row_lt t p⟩ : Fin 4096) d := by
  refine funext fun a => Fin.ext ?_
  obtain ⟨-, -, -, -, -, -, h0, h1⟩ := index_rows t
  match a with
  | ⟨0, _⟩ => show win0_6.index t (0 : Fin 2) * 128 + 1 * p.val = t.val * 128 + p.val; rw [h0]; omega
  | ⟨1, _⟩ => show win0_6.index t (1 : Fin 2) * 1024 + 1 * d.val = d.val; rw [h1]; omega

/-! ## What a point writes back -/

/-- Point t writes back, into the first output, its block of x·q. -/
theorem flushedQ_eq (c : Dev nD) (t : Fin cfg0.N) :
    (ProjRegion.dat (F := Ideal) V c).flushed 4 t
      = ((cfg0.win 4).blk t).view.read (Elt Ideal) (xw (V c main_arg0) (V c main_arg1)) := by
  show (cfg0.win 4).cut (grid0.coords t) ((ProjRegion.dat (F := Ideal) V c).after 4 t) = _
  rw [ProjRegion.after_outQ]
  unfold ProjRegion.outQ
  rw [View.canon_unit_zero zeros]
  simp only [View.ld_unit_zero (S := S128x1024) zeros, View.ld_unit_zero (S := S1024x1024) zeros]
  funext j
  obtain ⟨p, d, rfl⟩ : ∃ (p : Fin 128) (d : Fin 1024), j = ix2 p d := ⟨j 0, j 1, eq_ix2 j⟩
  show k0_pay1 (F := Ideal) (ProjRegion.iblk V c 0 t) (ProjRegion.iblk V c 1 t) (ix2 p d)
    = xw (V c main_arg0) (V c main_arg1) (((cfg0.win 4).blk t).view.emb (ix2 p d))
  refine (PayloadAt.proj_pay1_apply (ProjRegion.iblk V c 0 t) (ProjRegion.iblk V c 1 t) p d).trans ?_
  rw [qout_emb]
  show _ = Cert.AttnSpec.proj (V c main_arg0) (V c main_arg1) (⟨t.val * 128 + p.val, row_lt t p⟩ : Fin 4096) d
  unfold Cert.AttnSpec.proj
  exact Finset.sum_congr rfl fun e _ => by rw [xblk_apply, qblk_apply]

/-- Point t writes back, into the second output, its block of x·k. -/
theorem flushedK_eq (c : Dev nD) (t : Fin cfg0.N) :
    (ProjRegion.dat (F := Ideal) V c).flushed 5 t
      = ((cfg0.win 5).blk t).view.read (Elt Ideal) (xw (V c main_arg0) (V c main_arg2)) := by
  show (cfg0.win 5).cut (grid0.coords t) ((ProjRegion.dat (F := Ideal) V c).after 5 t) = _
  rw [ProjRegion.after_outK]
  unfold ProjRegion.outK
  rw [View.canon_unit_zero zeros]
  simp only [View.ld_unit_zero (S := S128x1024) zeros, View.ld_unit_zero (S := S1024x1024) zeros]
  funext j
  obtain ⟨p, d, rfl⟩ : ∃ (p : Fin 128) (d : Fin 1024), j = ix2 p d := ⟨j 0, j 1, eq_ix2 j⟩
  show k0_pay2 (F := Ideal) (ProjRegion.iblk V c 0 t) (ProjRegion.iblk V c 2 t) (ix2 p d)
    = xw (V c main_arg0) (V c main_arg2) (((cfg0.win 5).blk t).view.emb (ix2 p d))
  refine (PayloadAt.proj_pay2_apply (ProjRegion.iblk V c 0 t) (ProjRegion.iblk V c 2 t) p d).trans ?_
  rw [kout_emb]
  show _ = Cert.AttnSpec.proj (V c main_arg0) (V c main_arg2) (⟨t.val * 128 + p.val, row_lt t p⟩ : Fin 4096) d
  unfold Cert.AttnSpec.proj
  exact Finset.sum_congr rfl fun e _ => by rw [xblk_apply, kblk_apply]

/-- Point t writes back, into the third output, its block of x·v. -/
theorem flushedV_eq (c : Dev nD) (t : Fin cfg0.N) :
    (ProjRegion.dat (F := Ideal) V c).flushed 6 t
      = ((cfg0.win 6).blk t).view.read (Elt Ideal) (xw (V c main_arg0) (V c main_arg3)) := by
  show (cfg0.win 6).cut (grid0.coords t) ((ProjRegion.dat (F := Ideal) V c).after 6 t) = _
  rw [ProjRegion.after_outV]
  unfold ProjRegion.outV
  rw [View.canon_unit_zero zeros]
  simp only [View.ld_unit_zero (S := S128x1024) zeros, View.ld_unit_zero (S := S1024x1024) zeros]
  funext j
  obtain ⟨p, d, rfl⟩ : ∃ (p : Fin 128) (d : Fin 1024), j = ix2 p d := ⟨j 0, j 1, eq_ix2 j⟩
  show k0_pay3 (F := Ideal) (ProjRegion.iblk V c 0 t) (ProjRegion.iblk V c 3 t) (ix2 p d)
    = xw (V c main_arg0) (V c main_arg3) (((cfg0.win 6).blk t).view.emb (ix2 p d))
  refine (PayloadAt.proj_pay3_apply (ProjRegion.iblk V c 0 t) (ProjRegion.iblk V c 3 t) p d).trans ?_
  rw [vout_emb]
  show _ = Cert.AttnSpec.proj (V c main_arg0) (V c main_arg3) (⟨t.val * 128 + p.val, row_lt t p⟩ : Fin 4096) d
  unfold Cert.AttnSpec.proj
  exact Finset.sum_congr rfl fun e _ => by rw [xblk_apply, vblk_apply]

/-! ## The blocks tile the rows -/

/-- An index of the first output's array is in point t's block iff each coordinate is in the block's range. -/
theorem mem_blkQ (t : Fin cfg0.N) (i : S4096x1024.Idx) :
    i ∈ ((cfg0.win 4).blk t).view.set ↔ ∀ a : Fin 2, win0_4.index t a * S128x1024.size a ≤ (i a).val
      ∧ (i a).val < win0_4.index t a * S128x1024.size a + S128x1024.size a := by
  show i ∈ ((View.whole main_v0_0).slice (win0_4.rect t)).set ↔ _
  rw [View.set_slice_whole, Rect.mem_set_unit]
  exact Iff.rfl

/-- The point whose block holds row r: r / 128. -/
def pointOf (i : S4096x1024.Idx) : Fin cfg0.N :=
  ⟨(i 0).val / 128, by
    have h : (i 0).val < 4096 := (i 0).isLt
    show (i 0).val / 128 < grid0.N
    rw [N_0]; omega⟩

theorem pointOf_val (i : S4096x1024.Idx) : (pointOf i).val = (i 0).val / 128 := rfl

/-- Every entry of the first output is in the block of the point its row belongs to, which writes back. -/
theorem coverQ (i : S4096x1024.Idx) :
    ∃ t : Fin cfg0.N, (cfg0.win 4).flush t = true ∧ i ∈ ((cfg0.win 4).blk t).view.set := by
  refine ⟨pointOf i, flush0_4 _, ?_⟩
  rw [mem_blkQ]
  obtain ⟨-, -, h0, h1, -⟩ := index_rows (pointOf i)
  have hv := pointOf_val i
  have hi1 : (i 1).val < 1024 := (i 1).isLt
  intro a
  match a with
  | ⟨0, _⟩ =>
    show win0_4.index (pointOf i) (0 : Fin 2) * 128 ≤ (i 0).val ∧ (i 0).val < win0_4.index (pointOf i) (0 : Fin 2) * 128 + 128
    rw [h0, hv]; omega
  | ⟨1, _⟩ =>
    show win0_4.index (pointOf i) (1 : Fin 2) * 1024 ≤ (i 1).val ∧ (i 1).val < win0_4.index (pointOf i) (1 : Fin 2) * 1024 + 1024
    rw [h1]; omega

/-- The same for the second output, -/
theorem mem_blkK (t : Fin cfg0.N) (i : S4096x1024.Idx) :
    i ∈ ((cfg0.win 5).blk t).view.set ↔ ∀ a : Fin 2, win0_5.index t a * S128x1024.size a ≤ (i a).val
      ∧ (i a).val < win0_5.index t a * S128x1024.size a + S128x1024.size a := by
  show i ∈ ((View.whole main_v0_1).slice (win0_5.rect t)).set ↔ _
  rw [View.set_slice_whole, Rect.mem_set_unit]
  exact Iff.rfl

theorem coverK (i : S4096x1024.Idx) :
    ∃ t : Fin cfg0.N, (cfg0.win 5).flush t = true ∧ i ∈ ((cfg0.win 5).blk t).view.set := by
  refine ⟨pointOf i, flush0_5 _, ?_⟩
  rw [mem_blkK]
  obtain ⟨-, -, -, -, h0, h1, -⟩ := index_rows (pointOf i)
  have hv := pointOf_val i
  have hi1 : (i 1).val < 1024 := (i 1).isLt
  intro a
  match a with
  | ⟨0, _⟩ =>
    show win0_5.index (pointOf i) (0 : Fin 2) * 128 ≤ (i 0).val ∧ (i 0).val < win0_5.index (pointOf i) (0 : Fin 2) * 128 + 128
    rw [h0, hv]; omega
  | ⟨1, _⟩ =>
    show win0_5.index (pointOf i) (1 : Fin 2) * 1024 ≤ (i 1).val ∧ (i 1).val < win0_5.index (pointOf i) (1 : Fin 2) * 1024 + 1024
    rw [h1]; omega

/-- and for the third. -/
theorem mem_blkV (t : Fin cfg0.N) (i : S4096x1024.Idx) :
    i ∈ ((cfg0.win 6).blk t).view.set ↔ ∀ a : Fin 2, win0_6.index t a * S128x1024.size a ≤ (i a).val
      ∧ (i a).val < win0_6.index t a * S128x1024.size a + S128x1024.size a := by
  show i ∈ ((View.whole main_v0_2).slice (win0_6.rect t)).set ↔ _
  rw [View.set_slice_whole, Rect.mem_set_unit]
  exact Iff.rfl

theorem coverV (i : S4096x1024.Idx) :
    ∃ t : Fin cfg0.N, (cfg0.win 6).flush t = true ∧ i ∈ ((cfg0.win 6).blk t).view.set := by
  refine ⟨pointOf i, flush0_6 _, ?_⟩
  rw [mem_blkV]
  obtain ⟨-, -, -, -, -, -, h0, h1⟩ := index_rows (pointOf i)
  have hv := pointOf_val i
  have hi1 : (i 1).val < 1024 := (i 1).isLt
  intro a
  match a with
  | ⟨0, _⟩ =>
    show win0_6.index (pointOf i) (0 : Fin 2) * 128 ≤ (i 0).val ∧ (i 0).val < win0_6.index (pointOf i) (0 : Fin 2) * 128 + 128
    rw [h0, hv]; omega
  | ⟨1, _⟩ =>
    show win0_6.index (pointOf i) (1 : Fin 2) * 1024 ≤ (i 1).val ∧ (i 1).val < win0_6.index (pointOf i) (1 : Fin 2) * 1024 + 1024
    rw [h1]; omega

/-! ## The arrays after the region -/

/-- After the region the first output is x·q. -/
theorem final_qm (c : Dev nD) :
    (ProjRegion.dat (F := Ideal) V c).arrAt 4 cfg0.N
      = fun j : S4096x1024.Idx => Cert.AttnSpec.proj (V c main_arg0) (V c main_arg1) (j 0) (j 1) :=
  (ProjRegion.dat (F := Ideal) V c).arrAt_eq_of_cover 4 (xw (V c main_arg0) (V c main_arg1))
    (fun t _ => flushedQ_eq V c t) coverQ

/-- After the region the second output is x·k. -/
theorem final_km (c : Dev nD) :
    (ProjRegion.dat (F := Ideal) V c).arrAt 5 cfg0.N
      = fun j : S4096x1024.Idx => Cert.AttnSpec.proj (V c main_arg0) (V c main_arg2) (j 0) (j 1) :=
  (ProjRegion.dat (F := Ideal) V c).arrAt_eq_of_cover 5 (xw (V c main_arg0) (V c main_arg2))
    (fun t _ => flushedK_eq V c t) coverK

/-- After the region the third output is x·v. -/
theorem final_vm (c : Dev nD) :
    (ProjRegion.dat (F := Ideal) V c).arrAt 6 cfg0.N
      = fun j : S4096x1024.Idx => Cert.AttnSpec.proj (V c main_arg0) (V c main_arg3) (j 0) (j 1) :=
  (ProjRegion.dat (F := Ideal) V c).arrAt_eq_of_cover 6 (xw (V c main_arg0) (V c main_arg3))
    (fun t _ => flushedV_eq V c t) coverV

end Cert.KernelIdeal.ProjValue

end
-- ==== Proof.LibBlockedSums.lean ====
/-
  Finite sums over a product index, as a tiled contraction meets them.

  A contraction over `A * B` columns computed block by block (an accumulator that adds one block of `B` columns
  per step) is the sum over all columns; a contraction over rows numbered `a * M + j` (row `a` of slab `j`,
  the slabs interleaved) is the sum over the slabs of the sums over their rows; a contraction padded by rows
  whose terms vanish is the contraction over the unpadded rows. All three hold in any commutative additive
  monoid, so in particular over the extended reals, where they need no finiteness: only the order and the
  grouping of the terms change, and the padding terms are exact zeros.
-/
import Mathlib.Algebra.BigOperators.Fin
import Mathlib.Algebra.BigOperators.Group.Finset.Basic
import Mathlib.Logic.Equiv.Fin.Basic
import Mathlib.Tactic.Ring
import Mathlib.Tactic.Linarith

namespace BlockedSums

variable {M : Type*} [AddCommMonoid M]

/-- Column `b` of block `a`, numbered row-major, is a column of the whole. -/
theorem idx_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B ha

/-- A sum over `A * B` columns is the sum over the `A` blocks of the sums over each block's `B` columns. -/
theorem sum_blocks (A B : ℕ) (f : Fin (A * B) → M) :
    ∑ k, f k = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- The same sum with the roles exchanged: over the `B` positions inside a block, of the sums over the blocks
    (rows numbered `a * B + j` gathered slab by slab, slab `j` holding the rows `a * B + j`). -/
theorem sum_interleaved (A B : ℕ) (f : Fin (A * B) → M) :
    ∑ k, f k = ∑ j : Fin B, ∑ a : Fin A, f ⟨a.val * B + j.val, idx_lt a j⟩ := by
  rw [sum_blocks, Finset.sum_comm]

/-- Padding rows whose terms vanish leave a sum as it was. -/
theorem sum_padded (K P : ℕ) (f : Fin (K + P) → M) (hz : ∀ k : Fin (K + P), K ≤ k.val → f k = 0) :
    ∑ k, f k = ∑ k : Fin K, f (Fin.castAdd P k) := by
  rw [Fin.sum_univ_add]
  have h0 : ∑ i : Fin P, f (Fin.natAdd K i) = 0 :=
    Finset.sum_eq_zero fun i _ => hz _ (by simp [Fin.natAdd])
  rw [h0, add_zero]

/-- An accumulator that starts from the first block's contribution and adds one block per step holds, after
    step `n`, the sum of the contributions of the blocks `0 … n`. -/
theorem acc_eq_sum (g : ℕ → M) (acc : ℕ → M) (h0 : acc 0 = g 0) (hs : ∀ n, acc (n + 1) = acc n + g (n + 1)) (n : ℕ) :
    acc n = ∑ i ∈ Finset.range (n + 1), g i := by
  induction n with
  | zero => simp [h0]
  | succ n ih => rw [hs, ih, Finset.sum_range_succ _ (n + 1)]

/-- The same for an accumulator zeroed before the first block is added. -/
theorem acc_from_zero_eq_sum (g : ℕ → M) (acc : ℕ → M) (h0 : acc 0 = 0 + g 0) (hs : ∀ n, acc (n + 1) = acc n + g (n + 1)) (n : ℕ) :
    acc n = ∑ i ∈ Finset.range (n + 1), g i :=
  acc_eq_sum g acc (by rw [h0, zero_add]) hs n

/-- The blocks `0 … A - 1` summed over a range are the blocks summed over `Fin A`. -/
theorem sum_range_eq_sum_fin (A : ℕ) (g : ℕ → M) : ∑ i ∈ Finset.range A, g i = ∑ a : Fin A, g a.val :=
  (Fin.sum_univ_eq_sum_range g A).symm

end BlockedSums
-- ==== Proof.AttnPieces.lean ====
/-
  The attention region, part three: what each case of the body leaves, as values.

  The body's three cases each end with one store covering the whole scratch block — at the last key block also
  one covering the whole output block. Read back, the scratch holds the stored update term of the blocks the case
  loaded (started from the zero block at a first key block, where the zeros just stored are what the update reads),
  and the output block holds the row softmax of that same update, which the body reads back from the scratch.
-/
import proofs.«132627_j31696858644695_1_alg».proof.Proof.AttnRegionI
import Idealize.ShloMosaic.Lib.Pipeline.Value
import Idealize.ShloMosaic.Lib.Tactic

set_option maxRecDepth 16384

noncomputable section

namespace Cert.KernelIdeal.AttnValue

open Cert.KernelIdeal Cert.KernelIdeal.Gen Cert.KernelIdeal.AttnRegion

open Idealize.ShloMosaic Idealize.ShloMosaic.TcCoe Idealize.ShloMosaic.Tactic
open Idealize.SL Idealize.SL.Sem
open Idealize.ShloMosaic.Pipeline (Dat)

section Pieces
variable {F : FTy → Type} [FloatOps F]

theorem hz : (![0, 0] : Fin 2 → Nat) = fun _ => 0 := funext fun a => by fin_cases a <;> rfl

/-- A middle key block leaves in the scratch: what it held, plus this block's term. -/
theorem soutMid_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : ¬condLast i) (x0 x1 x2 xs0 : Vec F S512x1024 .f32) :
    soutMid (F := F) c i arg2 harg2 arg3 harg3 arg4 harg4 arg5 harg5 arg6 harg6 hc0 hc1 x0 x1 x2 xs0 = k1_pay2 x0 x1 xs0 x2 := by
  unfold soutMid
  rw [View.read_writes_eq_canon _ _ _ (scoverMid c i arg2 harg2 arg3 harg3 arg4 harg4 arg5 harg5 arg6 harg6 hc0 hc1 x0 x1 x2 xs0)]
  unfold runMid
  dsimp only
  rw [View.canon_unit_zero (S := S512x1024) hz]
  simp only [View.readAt_eq_ld, harg2.read_unread, harg3.read_unread, harg4.read_unread, harg6.read_unread, View.ld_unit_zero (S := S512x1024) hz]

/-- The last key block leaves in the scratch the same sum, -/
theorem soutLast_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : condLast i) (x0 x1 x2 xs0 : Vec F S512x1024 .f32) :
    soutLast (F := F) c i arg2 harg2 arg3 harg3 arg4 harg4 arg5 harg5 arg6 harg6 hc0 hc1 x0 x1 x2 xs0 = k1_pay2 x0 x1 xs0 x2 := by
  unfold soutLast
  rw [View.read_writes_eq_canon _ _ _ (scoverLast c i arg2 harg2 arg3 harg3 arg4 harg4 arg5 harg5 arg6 harg6 hc0 hc1 x0 x1 x2 xs0)]
  unfold runLast
  dsimp only
  sl_unfold_words
  rw [View.canon_unit_zero (S := S512x1024) hz]
  simp only [View.readAt_eq_ld, harg2.read_unread, harg3.read_unread, harg4.read_unread, harg6.read_unread, View.ld_unit_zero (S := S512x1024) hz]

/-- and in the output block the row softmax of that sum: the load before the softmax reads back what the
    step's own store into the scratch left. -/
theorem outLast_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : ¬condFirst i) (hc1 : condLast i) (x0 x1 x2 xs0 : Vec F S512x1024 .f32) :
    outLast (F := F) c i arg2 harg2 arg3 harg3 arg4 harg4 arg5 harg5 arg6 harg6 hc0 hc1 x0 x1 x2 xs0 = k1_pay3 (k1_pay2 x0 x1 xs0 x2) := by
  unfold outLast
  rw [View.read_writes_eq_canon _ _ _ (coverLast c i arg2 harg2 arg3 harg3 arg4 harg4 arg5 harg5 arg6 harg6 hc0 hc1 x0 x1 x2 xs0)]
  unfold runLast
  dsimp only
  sl_unfold_words
  rw [View.canon_unit_zero (S := S512x1024) hz, View.readCov_unit_zero (S := S512x1024) _ hz]
  simp only [View.readAt_eq_ld, harg2.read_unread, harg3.read_unread, harg4.read_unread, harg6.read_unread, View.ld_unit_zero (S := S512x1024) hz]

/-- A first key block zeroes the scratch, reads the zeros back, and adds its block's term to them. -/
theorem soutFirst_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (hc0 : condFirst i) (hc1 : ¬condLast i) (x0 x1 x2 : Vec F S512x1024 .f32) :
    soutFirst (F := F) c i arg2 harg2 arg3 harg3 arg4 harg4 arg5 harg5 arg6 harg6 hc0 hc1 x0 x1 x2 = k1_pay2 x0 x1 (k1_pay1 (F := F)) x2 := by
  unfold soutFirst
  rw [View.read_writes_eq_canon _ _ _ (scoverFirst c i arg2 harg2 arg3 harg3 arg4 harg4 arg5 harg5 arg6 harg6 hc0 hc1 x0 x1 x2)]
  unfold runFirst
  dsimp only
  sl_unfold_words
  rw [View.canon_cons_unit_zero (S := S512x1024) hz, View.readCov_unit_zero (S := S512x1024) _ hz]
  simp only [View.readAt_eq_ld, harg2.read_unread, harg3.read_unread, harg4.read_unread, View.ld_unit_zero (S := S512x1024) hz]

end Pieces

end Cert.KernelIdeal.AttnValue

end
-- ==== Proof.AttnCover.lean ====
/-
  The attention region's output blocks tile the output array.

  The region visits 64 points, t = 8 i + j. Its output window is at block (i, 0) = (t / 8, 0) of 512 rows at point
  t, so an entry (p, c) of the block sits in the array at (512 (t / 8) + p, c); the block is written back only at
  the last key step of each row block, the points with t % 8 = 7. Row r of the array lies in row block r / 512,
  whose writing point is 8 (r / 512) + 7: every entry of the array is in the block of a point that writes back.
-/
import proofs.«132627_j31696858644695_1_alg».proof.Proof.AttnRegionI
import Idealize.ShloMosaic.Lib.Pipeline.Value
import Idealize.ShloMosaic.Lib.ValueIdx

noncomputable section

namespace Cert.KernelIdeal.AttnCover

open Cert.KernelIdeal Cert.KernelIdeal.Gen

open Idealize.ShloMosaic Idealize.ShloMosaic.TcCoe Idealize.ShloMosaic.ValueIdx
open Idealize.SL Idealize.SL.Sem
open Idealize.ShloMosaic.Pipeline (Dat Cfg Window)

/-! ## The printed index map, decided over the 64 points -/

/-- The output window is at block (t / 8, 0) at point t. -/
theorem index_out : ∀ t : Fin cfg1.N, win1_3.index t (0 : Fin 2) = t.val / 8 ∧ win1_3.index t (1 : Fin 2) = 0 :=
  (by decide +kernel : ∀ t : Fin grid1.N, _)

/-- Row p of the block of point t is a row of the array. -/
theorem row_lt (t : Fin cfg1.N) (p : Fin 512) : (t.val / 8) * 512 + p.val < 4096 := by
  have ht : t.val < 64 := Nat.lt_of_lt_of_eq t.isLt N_1
  have hp := p.isLt
  omega

/-- The output block of point t, at (p, c), sits in the array at (512 (t / 8) + p, c). -/
theorem out_emb (t : Fin cfg1.N) (p : Fin 512) (c : Fin 1024) :
    ((cfg1.win 3).blk t).view.emb (ix2 p c) = ix2 (⟨(t.val / 8) * 512 + p.val, row_lt t p⟩ : Fin 4096) c := by
  refine funext fun a => Fin.ext ?_
  obtain ⟨h0, h1⟩ := index_out t
  match a with
  | ⟨0, _⟩ => show win1_3.index t (0 : Fin 2) * 512 + 1 * p.val = (t.val / 8) * 512 + p.val; rw [h0]; omega
  | ⟨1, _⟩ => show win1_3.index t (1 : Fin 2) * 1024 + 1 * c.val = c.val; rw [h1]; omega

/-! ## The blocks tile the rows -/

/-- An index of the output array is in point t's block iff each coordinate is in the block's range. -/
theorem mem_blk_out (t : Fin cfg1.N) (i : S4096x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v1).slice (win1_3.rect t)).set ↔ _
  rw [View.set_slice_whole, Rect.mem_set_unit]
  exact Iff.rfl

/-- The point that writes back the row block holding row r: the last key step of row block r / 512. -/
def pointOf (i : S4096x1024.Idx) : Fin cfg1.N :=
  ⟨8 * ((i 0).val / 512) + 7, by
    have h : (i 0).val < 4096 := (i 0).isLt
    show 8 * ((i 0).val / 512) + 7 < grid1.N
    rw [N_1]; omega⟩

theorem pointOf_val (i : S4096x1024.Idx) : (pointOf i).val = 8 * ((i 0).val / 512) + 7 := rfl

/-- Every entry of the output array is in the block of a point that writes back. -/
theorem cover_out (i : S4096x1024.Idx) :
    ∃ t : Fin cfg1.N, (cfg1.win 3).flush t = true ∧ i ∈ ((cfg1.win 3).blk t).view.set := by
  have hv := pointOf_val i
  refine ⟨pointOf i, (flush1_3 _).mpr (by rw [hv]; omega), ?_⟩
  rw [mem_blk_out]
  obtain ⟨h0, h1⟩ := index_out (pointOf i)
  have hi1 : (i 1).val < 1024 := (i 1).isLt
  intro a
  match a with
  | ⟨0, _⟩ =>
    show win1_3.index (pointOf i) (0 : Fin 2) * 512 ≤ (i 0).val ∧ (i 0).val < win1_3.index (pointOf i) (0 : Fin 2) * 512 + 512
    rw [h0, hv]; omega
  | ⟨1, _⟩ =>
    show win1_3.index (pointOf i) (1 : Fin 2) * 1024 ≤ (i 1).val ∧ (i 1).val < win1_3.index (pointOf i) (1 : Fin 2) * 1024 + 1024
    rw [h1]; omega

/-! ## From the written-back blocks to the array -/

variable {F : FTy → Type} [FloatOps F]

-- the TensorCore's buffer contents when the region is entered
variable (V : (c : Dev nD) → (b : Ref sig .tc) → Buf (Elt F) ((c : Thread nD τ).loc b))

/-- If what every writing point writes back is its block of one whole-array function G, the output array is G after
    the region. -/
theorem arr_of_flushed (c : Dev nD) (G : S4096x1024.Idx → Elt F .f32)
    (hG : ∀ t, (cfg1.win 3).flush t = true →
      (AttnRegion.dat V c).flushed 3 t = ((cfg1.win 3).blk t).view.read (Elt F) G) :
    (AttnRegion.dat V c).arrAt 3 cfg1.N = G :=
  (AttnRegion.dat V c).arrAt_eq_of_cover 3 G hG cover_out

end Cert.KernelIdeal.AttnCover

end
-- ==== Proof.SpecRegions.lean ====
/-
  The attention region as a function of the three projected arrays, and its composition with the projections.

  Given qm, km, vm : [4096, 1024], row r of `attend qm km vm` is the softmax of the row
  c ↦ Σ over all 4096 keys n of (⟨qm row r, km row n⟩ · 2⁻⁵) · vm[n, c]. With qm = x·q, km = x·k, vm = x·v this is
  the specification's `result`, by unfolding.
-/
import proofs.«132627_j31696858644695_1_alg».proof.Proof.Spec

noncomputable section

namespace Cert.AttnSpec

open Idealize.ShloMosaic Idealize.ShloMosaic.ValueIdx

/-- The scaled scores times the values at (r, c), from the projected arrays. -/
def mixOf (qm km vm : Arr 4096 1024) (r : Fin 4096) (c : Fin 1024) : EReal :=
  ∑ n : Fin 4096, ((∑ d : Fin 1024, qm (ix2 r d) * km (ix2 n d)) * scale) * vm (ix2 n c)

/-- The attention region's result from the projected arrays. -/
def attend (qm km vm : Arr 4096 1024) : Arr 4096 1024 :=
  fun j => softRow (fun c => mixOf qm km vm (j 0) c) (j 1)

theorem attend_ix2 (qm km vm : Arr 4096 1024) (r : Fin 4096) (c : Fin 1024) :
    attend qm km vm (ix2 r c) = softRow (fun c' => mixOf qm km vm r c') c := rfl

/-- A projection as a whole array. -/
def projArr (x : Arr 4096 1024) (w : Arr 1024 1024) : Arr 4096 1024 := fun j => proj x w (j 0) (j 1)

/-- Attending to the three projections of x is the specification's result. -/
theorem attend_proj (x : Arr 4096 1024) (q k v : Arr 1024 1024) :
    attend (projArr x q) (projArr x k) (projArr x v) = result x q k v := rfl

end Cert.AttnSpec

end
-- ==== Proof.AttnValue.lean ====
/-
  The attention region, part four: the array it ends with.

  Point t = 8 i + j of the 8 × 8 grid works on query rows 512 i … 512 i + 511 and key rows 512 j … 512 j + 511.
  The blocks the windows hand the body are those rows of the three arrays the region is entered with. One step of
  the body adds to the scratch, at (p, c'), key block j's contribution
      Σ_{n' < 512} ((Σ_d query[512 i + p, d] · key[512 j + n', d]) · 2⁻⁵) · value[512 j + n', c'],
  starting from zero at j = 0; so after position n the scratch holds the contributions of the key blocks 0 … n % 8
  (induction on the position), and at j = 7 that is the sum over all 4096 keys (eight blocks of 512). There the output
  block receives the row softmax of the scratch, and is written back: the points with j = 7 cover every row of the
  output array, which therefore ends, row by row, at the softmax of the full sums.
-/
import proofs.«132627_j31696858644695_1_alg».proof.Proof.AttnRegionI
import proofs.«132627_j31696858644695_1_alg».proof.Proof.PayloadAt
import proofs.«132627_j31696858644695_1_alg».proof.Proof.LibBlockedSums
import proofs.«132627_j31696858644695_1_alg».proof.Proof.AttnPieces
import proofs.«132627_j31696858644695_1_alg».proof.Proof.AttnCover
import proofs.«132627_j31696858644695_1_alg».proof.Proof.SpecRegions
import Idealize.ShloMosaic.Lib.Pipeline.Value
import Idealize.ShloMosaic.Lib.Tactic

set_option maxRecDepth 16384

noncomputable section

open scoped BigOperators

namespace Cert.KernelIdeal.AttnValue

open Cert.KernelIdeal Cert.KernelIdeal.Gen Cert.KernelIdeal.AttnRegion

open Idealize.ShloMosaic Idealize.ShloMosaic.TcCoe Idealize.ShloMosaic.Tactic Idealize.ShloMosaic.ValueIdx
open Idealize.SL Idealize.SL.Sem
open Idealize.ShloMosaic.Pipeline (Dat)

/-! ## The sum over the keys, block by block -/

section Sums

/-- Key n's term in row r of the scaled scores times the values, at column c'. -/
def term (Q K W : S4096x1024.Idx → EReal) (r : Fin 4096) (c' : Fin 1024) (n : Fin 4096) : EReal :=
  ((∑ d : Fin 1024, Q (ix2 r d) * K (ix2 n d)) * Cert.AttnSpec.scale) * W (ix2 n c')

/-- Row p of the query block the position n works on: row 512 (n / 8) + p (reduced below 4096 so that it is
    defined at every n; below 64 positions nothing wraps). -/
def rowOf (n : ℕ) (p : Fin 512) : Fin 4096 := ⟨(512 * (n / 8) + p.val) % 4096, Nat.mod_lt _ (by norm_num)⟩

/-- Row n' of key block j: row 512 j + n' (reduced below 4096 likewise; below 8 blocks nothing wraps). -/
def keyOf (j : ℕ) (n' : Fin 512) : Fin 4096 := ⟨(512 * j + n'.val) % 4096, Nat.mod_lt _ (by norm_num)⟩

theorem rowOf_val (n : ℕ) (hn : n < 64) (p : Fin 512) : (rowOf n p).val = 512 * (n / 8) + p.val := by
  show (512 * (n / 8) + p.val) % 4096 = _
  have := p.isLt; omega

theorem keyOf_val (j : ℕ) (hj : j < 8) (n' : Fin 512) : (keyOf j n').val = 512 * j + n'.val := by
  show (512 * j + n'.val) % 4096 = _
  have := n'.isLt; omega

/-- Key block j's contribution to row r at column c'. -/
def blockTerm (Q K W : S4096x1024.Idx → EReal) (r : Fin 4096) (c' : Fin 1024) (j : ℕ) : EReal :=
  ∑ n' : Fin 512, term Q K W r c' (keyOf j n')

/-- The eight key blocks' contributions add up to the sum over all 4096 keys. -/
theorem sum_blockTerm (Q K W : S4096x1024.Idx → EReal) (r : Fin 4096) (c' : Fin 1024) :
    ∑ j ∈ Finset.range 8, blockTerm Q K W r c' j = ∑ n : Fin 4096, term Q K W r c' n := by
  rw [BlockedSums.sum_range_eq_sum_fin 8]
  refine Eq.trans ?_ (BlockedSums.sum_blocks 8 512 (term Q K W r c')).symm
  refine Finset.sum_congr rfl fun a _ => ?_
  show ∑ b : Fin 512, term Q K W r c' (keyOf a.val b) = _
  refine Finset.sum_congr rfl fun b _ => congrArg (term Q K W r c') (Fin.ext ?_)
  rw [keyOf_val a.val a.isLt b]
  show 512 * a.val + b.val = a.val * 512 + b.val
  omega

end Sums

/-! ## The blocks the windows hand the body, read off the region's entry arrays -/

section Value
variable (V : (c : Dev nD) → (b : Ref sig .tc) → Buf (Elt Ideal) ((c : Thread nD τ).loc b))

/-- The index maps over the grid: the query and output windows follow the query block t / 8, the key and value
    windows the key block t % 8; no window moves along the columns. -/
theorem idx_facts : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-- Row p of the query block at point t is row 512 (t / 8) + p of the query array. -/
theorem iblk_qm (c : Dev nD) (t : Fin cfg1.N) (p : Fin 512) (d : Fin 1024) (r : Fin 4096) (hr : r.val = 512 * (t.val / 8) + p.val) :
    (iblk (F := Ideal) V c 0 t : S512x1024.Idx → EReal) (ix2 p d) = (V c main_v0_0 : S4096x1024.Idx → EReal) (ix2 r d) := by
  obtain ⟨e0, e1, -⟩ := idx_facts t
  unfold iblk
  rw [View.read_apply]
  show (V c main_v0_0 : S4096x1024.Idx → EReal) _ = _
  refine congrArg _ (funext fun a => Fin.ext ?_)
  match a with
  | ⟨0, _⟩ => show win1_0.index t (0 : Fin 2) * 512 + 1 * p.val = r.val; rw [e0, hr]; omega
  | ⟨1, _⟩ => show win1_0.index t (1 : Fin 2) * 1024 + 1 * d.val = d.val; rw [e1]; omega

/-- Row n of the key block at point t is row 512 (t % 8) + n of the key array. -/
theorem iblk_km (c : Dev nD) (t : Fin cfg1.N) (n : Fin 512) (d : Fin 1024) (k : Fin 4096) (hk : k.val = 512 * (t.val % 8) + n.val) :
    (iblk (F := Ideal) V c 1 t : S512x1024.Idx → EReal) (ix2 n d) = (V c main_v0_1 : S4096x1024.Idx → EReal) (ix2 k d) := by
  obtain ⟨-, -, e0, e1, -⟩ := idx_facts t
  unfold iblk
  rw [View.read_apply]
  show (V c main_v0_1 : S4096x1024.Idx → EReal) _ = _
  refine congrArg _ (funext fun a => Fin.ext ?_)
  match a with
  | ⟨0, _⟩ => show win1_1.index t (0 : Fin 2) * 512 + 1 * n.val = k.val; rw [e0, hk]; omega
  | ⟨1, _⟩ => show win1_1.index t (1 : Fin 2) * 1024 + 1 * d.val = d.val; rw [e1]; omega

/-- Row n of the value block at point t is row 512 (t % 8) + n of the value array. -/
theorem iblk_vm (c : Dev nD) (t : Fin cfg1.N) (n : Fin 512) (d : Fin 1024) (k : Fin 4096) (hk : k.val = 512 * (t.val % 8) + n.val) :
    (iblk (F := Ideal) V c 2 t : S512x1024.Idx → EReal) (ix2 n d) = (V c main_v0_2 : S4096x1024.Idx → EReal) (ix2 k d) := by
  obtain ⟨-, -, -, -, e0, e1, -⟩ := idx_facts t
  unfold iblk
  rw [View.read_apply]
  show (V c main_v0_2 : S4096x1024.Idx → EReal) _ = _
  refine congrArg _ (funext fun a => Fin.ext ?_)
  match a with
  | ⟨0, _⟩ => show win1_2.index t (0 : Fin 2) * 512 + 1 * n.val = k.val; rw [e0, hk]; omega
  | ⟨1, _⟩ => show win1_2.index t (1 : Fin 2) * 1024 + 1 * d.val = d.val; rw [e1]; omega

end Value

/-! ## The running sum, point by point -/

section Acc
variable (V : (c : Dev nD) → (b : Ref sig .tc) → Buf (Elt Ideal) ((c : Thread nD τ).loc b))

/-- One step of the body at point t, at (p, c'): what the scratch held plus key block t % 8's contribution to
    row 512 (t / 8) + p. -/
theorem step_at (c : Dev nD) (t : Fin cfg1.N) (prev : Vec Ideal S512x1024 .f32) (p : Fin 512) (c' : Fin 1024) :
    k1_pay2 (F := Ideal) (iblk V c 0 t) (iblk V c 1 t) prev (iblk V c 2 t) (ix2 p c')
      = prev (ix2 p c') + blockTerm (V c main_v0_0) (V c main_v0_1) (V c main_v0_2) (rowOf t.val p) c' (t.val % 8) := by
  have hN : cfg1.N = 64 := N_1
  have ht : t.val < 64 := lt_of_lt_of_eq t.isLt hN
  refine (PayloadAt.acc_pay_apply (iblk V c 0 t) (iblk V c 1 t) prev (iblk V c 2 t) p c').trans ?_
  refine congrArg (prev (ix2 p c') + ·) ?_
  unfold blockTerm term
  refine Finset.sum_congr rfl fun n' _ => ?_
  have hk : (keyOf (t.val % 8) n').val = 512 * (t.val % 8) + n'.val := keyOf_val _ (Nat.mod_lt _ (by norm_num)) n'
  rw [iblk_vm V c t n' c' (keyOf (t.val % 8) n') hk]
  refine congrArg (fun s => s * Cert.AttnSpec.scale * (V c main_v0_2 : S4096x1024.Idx → EReal) (ix2 (keyOf (t.val % 8) n') c')) ?_
  refine Finset.sum_congr rfl fun d _ => ?_
  rw [iblk_qm V c t p d (rowOf t.val p) (rowOf_val t.val ht p), iblk_km V c t n' d (keyOf (t.val % 8) n') hk]

/-- At a first key block the scratch ends at that block's contribution alone. -/
theorem first_at (c : Dev nD) (t : Fin cfg1.N) (h0 : t.val % 8 = 0) (p : Fin 512) (c' : Fin 1024) :
    (outsAt (F := Ideal) V c t.val t.isLt).2 (ix2 p c')
      = ∑ j ∈ Finset.range (t.val % 8 + 1), blockTerm (V c main_v0_0) (V c main_v0_1) (V c main_v0_2) (rowOf t.val p) c' j := by
  have h1 : ¬t.val % 8 = 7 := by omega
  rw [outsAt_First V c t h0 h1]
  dsimp only
  refine (congrFun (soutFirst_eq (F := Ideal) c (grid1.coords t) (ms0 t) (hs0 t) (ms1 t) (hs1 t) (ms2 t) (hs2 t) (ms3 t) (hs3 t) scM (Memref.isWhole_whole _) ((hcondFirst t).mpr h0) (fun h => h1 ((hcondLast t).mp h)) (iblk V c 0 t) (iblk V c 1 t) (iblk V c 2 t)) (ix2 p c')).trans ?_
  refine (step_at V c t (k1_pay1 (F := Ideal)) p c').trans ?_
  rw [PayloadAt.zero_pay_apply, zero_add, h0, Finset.sum_range_one]

/-- At any later key block it ends at what the point before left plus that block's contribution. -/
theorem later_at (c : Dev nD) (t : Fin cfg1.N) (h0 : ¬t.val % 8 = 0) (p : Fin 512) (c' : Fin 1024) :
    (outsAt (F := Ideal) V c t.val t.isLt).2 (ix2 p c')
      = (outsAt (F := Ideal) V c (t.val - 1) (Nat.lt_of_le_of_lt (Nat.sub_le _ _) t.isLt)).2 (ix2 p c')
        + blockTerm (V c main_v0_0) (V c main_v0_1) (V c main_v0_2) (rowOf t.val p) c' (t.val % 8) := by
  by_cases h1 : t.val % 8 = 7
  · rw [outsAt_Last V c t h0 h1]
    dsimp only
    refine (congrFun (soutLast_eq (F := Ideal) c (grid1.coords t) (ms0 t) (hs0 t) (ms1 t) (hs1 t) (ms2 t) (hs2 t) (ms3 t) (hs3 t) scM (Memref.isWhole_whole _) (fun h => h0 ((hcondFirst t).mp h)) ((hcondLast t).mpr h1) (iblk V c 0 t) (iblk V c 1 t) (iblk V c 2 t) (outsAt (F := Ideal) V c (t.val - 1) (Nat.lt_of_le_of_lt (Nat.sub_le _ _) t.isLt)).2) (ix2 p c')).trans ?_
    exact step_at V c t (outsAt (F := Ideal) V c (t.val - 1) (Nat.lt_of_le_of_lt (Nat.sub_le _ _) t.isLt)).2 p c'
  · rw [outsAt_Mid V c t h0 h1]
    dsimp only
    refine (congrFun (soutMid_eq (F := Ideal) c (grid1.coords t) (ms0 t) (hs0 t) (ms1 t) (hs1 t) (ms2 t) (hs2 t) (ms3 t) (hs3 t) scM (Memref.isWhole_whole _) (fun h => h0 ((hcondFirst t).mp h)) (fun h => h1 ((hcondLast t).mp h)) (iblk V c 0 t) (iblk V c 1 t) (iblk V c 2 t) (outsAt (F := Ideal) V c (t.val - 1) (Nat.lt_of_le_of_lt (Nat.sub_le _ _) t.isLt)).2) (ix2 p c')).trans ?_
    exact step_at V c t (outsAt (F := Ideal) V c (t.val - 1) (Nat.lt_of_le_of_lt (Nat.sub_le _ _) t.isLt)).2 p c'

/-- THE RUNNING SUM: after position n the scratch holds, at (p, c'), the contributions of the key blocks
    0 … n % 8 to row 512 (n / 8) + p. -/
theorem scratch_at (c : Dev nD) : ∀ (n : ℕ) (hn : n < cfg1.N) (p : Fin 512) (c' : Fin 1024),
    (outsAt (F := Ideal) V c n hn).2 (ix2 p c')
      = ∑ j ∈ Finset.range (n % 8 + 1), blockTerm (V c main_v0_0) (V c main_v0_1) (V c main_v0_2) (rowOf n p) c' j
  | 0, hn, p, c' => first_at V c ⟨0, hn⟩ rfl p c'
  | n + 1, hn, p, c' => by
    by_cases h0 : (n + 1) % 8 = 0
    · exact first_at V c ⟨n + 1, hn⟩ h0 p c'
    · refine (later_at V c ⟨n + 1, hn⟩ h0 p c').trans ?_
      show (outsAt (F := Ideal) V c n _).2 (ix2 p c') + _ = _
      rw [scratch_at c n (Nat.lt_of_succ_lt hn) p c']
      have e1 : n % 8 + 1 = (n + 1) % 8 := by omega
      have e2 : rowOf n p = rowOf (n + 1) p := Fin.ext (by
        show (512 * (n / 8) + p.val) % 4096 = (512 * ((n + 1) / 8) + p.val) % 4096
        have : n / 8 = (n + 1) / 8 := by omega
        rw [this])
      show _ + blockTerm _ _ _ (rowOf (n + 1) p) c' ((n + 1) % 8) = _
      rw [e1, e2, ← Finset.sum_range_succ]

end Acc

/-! ## The output block at a last key block, and the array the region ends with -/

section Final
variable (V : (c : Dev nD) → (b : Ref sig .tc) → Buf (Elt Ideal) ((c : Thread nD τ).loc b))

/-- At a last key block the output block holds, in row p, the softmax of the row's sums over all 4096 keys. -/
theorem out_at (c : Dev nD) (t : Fin cfg1.N) (h1 : t.val % 8 = 7) (p : Fin 512) (cc : Fin 1024) :
    (outsAt (F := Ideal) V c t.val t.isLt).1 (ix2 p cc)
      = Cert.AttnSpec.softRow (fun c' => ∑ n : Fin 4096, term (V c main_v0_0) (V c main_v0_1) (V c main_v0_2) (rowOf t.val p) c' n) cc := by
  have h0 : ¬t.val % 8 = 0 := by omega
  have hrow : ∀ c' : Fin 1024, k1_pay2 (F := Ideal) (iblk V c 0 t) (iblk V c 1 t) (outsAt (F := Ideal) V c (t.val - 1) (Nat.lt_of_le_of_lt (Nat.sub_le _ _) t.isLt)).2 (iblk V c 2 t) (ix2 p c')
      = ∑ n : Fin 4096, term (V c main_v0_0) (V c main_v0_1) (V c main_v0_2) (rowOf t.val p) c' n := fun c' =>
    (step_at V c t (outsAt (F := Ideal) V c (t.val - 1) (Nat.lt_of_le_of_lt (Nat.sub_le _ _) t.isLt)).2 p c').trans ((later_at V c t h0 p c').symm.trans
      ((scratch_at V c t.val t.isLt p c').trans (by rw [h1]; exact sum_blockTerm _ _ _ _ _)))
  rw [outsAt_Last V c t h0 h1]
  dsimp only
  refine (congrFun (outLast_eq (F := Ideal) c (grid1.coords t) (ms0 t) (hs0 t) (ms1 t) (hs1 t) (ms2 t) (hs2 t) (ms3 t) (hs3 t) scM (Memref.isWhole_whole _) (fun h => h0 ((hcondFirst t).mp h)) ((hcondLast t).mpr h1) (iblk V c 0 t) (iblk V c 1 t) (iblk V c 2 t) (outsAt (F := Ideal) V c (t.val - 1) (Nat.lt_of_le_of_lt (Nat.sub_le _ _) t.isLt)).2) (ix2 p cc)).trans ?_
  refine (PayloadAt.soft_pay_apply (k1_pay2 (F := Ideal) (iblk V c 0 t) (iblk V c 1 t) (outsAt (F := Ideal) V c (t.val - 1) (Nat.lt_of_le_of_lt (Nat.sub_le _ _) t.isLt)).2 (iblk V c 2 t)) p cc).trans ?_
  exact congrArg (fun z => Cert.AttnSpec.softRow z cc) (funext hrow)

/-- Entry (p, cc) of the output block at point t is entry (512 (t / 8) + p, cc) of the output array. -/
theorem out_emb (t : Fin cfg1.N) (p : Fin 512) (cc : Fin 1024) (r : Fin 4096) (hr : r.val = 512 * (t.val / 8) + p.val) :
    ((cfg1.win 3).blk t).view.emb (ix2 p cc) = ix2 r cc := by
  refine funext fun a => Fin.ext ?_
  obtain ⟨-, -, -, -, -, -, e0, e1⟩ := idx_facts t
  match a with
  | ⟨0, _⟩ => show win1_3.index t (0 : Fin 2) * 512 + 1 * p.val = r.val; rw [e0, hr]; omega
  | ⟨1, _⟩ => show win1_3.index t (1 : Fin 2) * 1024 + 1 * cc.val = cc.val; rw [e1]; omega

/-- What a last key block's point writes back is its block of the attention of the three entry arrays: row r the
    softmax of the row c' ↦ Σ over all 4096 keys n of (⟨query row r, key row n⟩ · 2⁻⁵) · value[n, c']. -/
theorem flushed_eq (c : Dev nD) (t : Fin cfg1.N) (hf : (cfg1.win 3).flush t = true) :
    (dat (F := Ideal) V c).flushed 3 t
      = ((cfg1.win 3).blk t).view.read (Elt Ideal) (Cert.AttnSpec.attend (V c main_v0_0) (V c main_v0_1) (V c main_v0_2)) := by
  have h1 : t.val % 8 = 7 := (flush1_3 t).mp hf
  have hN : cfg1.N = 64 := N_1
  have ht : t.val < 64 := lt_of_lt_of_eq t.isLt hN
  show (cfg1.win 3).cut (grid1.coords t) ((dat (F := Ideal) V c).after 3 t) = _
  rw [after_out]
  funext j
  obtain ⟨p, cc, rfl⟩ : ∃ (p : Fin 512) (cc : Fin 1024), j = ix2 p cc := ⟨j 0, j 1, eq_ix2 j⟩
  show (outsAt (F := Ideal) V c t.val t.isLt).1 (ix2 p cc)
    = Cert.AttnSpec.attend (V c main_v0_0) (V c main_v0_1) (V c main_v0_2) (((cfg1.win 3).blk t).view.emb (ix2 p cc))
  rw [out_emb t p cc (rowOf t.val p) (rowOf_val t.val ht p), Cert.AttnSpec.attend_ix2]
  exact out_at V c t h1 p cc

/-- So, the last key blocks' points covering every row, the output array ends at the attention of the three
    arrays the region is entered with. -/
theorem final_out (c : Dev nD) :
    (dat (F := Ideal) V c).arrAt 3 cfg1.N = Cert.AttnSpec.attend (V c main_v0_0) (V c main_v0_1) (V c main_v0_2) :=
  (dat (F := Ideal) V c).arrAt_eq_of_cover 3 (Cert.AttnSpec.attend (V c main_v0_0) (V c main_v0_1) (V c main_v0_2)) (flushed_eq V c) AttnCover.cover_out

end Final

end Cert.KernelIdeal.AttnValue

end
-- ==== Proof.KernelValue.lean ====
/-
  The kernel's result is the specification.

  The projection region leaves x·q, x·k, x·v in its three output arrays; the attention region is entered from
  exactly those arrays and leaves, in the result array, its function `attend` of them: row r is the softmax of
  c ↦ Σ over all keys n of (⟨(x·q) row r, (x·k) row n⟩ · 2⁻⁵) · (x·v)[n, c]. Substituting the first fact into the
  second gives the specification's `result` of the four argument arrays as launched.
-/
import proofs.«132627_j31696858644695_1_alg».proof.Proof.ProjValue
import proofs.«132627_j31696858644695_1_alg».proof.Proof.AttnValue
import proofs.«132627_j31696858644695_1_alg».proof.Proof.WholeRunI
import proofs.«132627_j31696858644695_1_alg».proof.Proof.SpecRegions

noncomputable section

namespace Cert.KernelIdeal.KernelValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- What the attention region's write-backs leave in the result array, as a function of the launch memory. -/
theorem result_eq (c : Dev nD) :
    (AttnRegion.dat (F := Ideal) (WholeRun.V1 m ρ) c).arrAt 3 cfg1.N
      = Cert.AttnSpec.result (m ((c.tc : Thread nD τ).loc main_arg0)) (m ((c.tc : Thread nD τ).loc main_arg1))
          (m ((c.tc : Thread nD τ).loc main_arg2)) (m ((c.tc : Thread nD τ).loc main_arg3)) := by
  have hq : WholeRun.V1 m ρ c main_v0_0
      = Cert.AttnSpec.projArr (m ((c.tc : Thread nD τ).loc main_arg0)) (m ((c.tc : Thread nD τ).loc main_arg1)) :=
    (WholeRun.W1_arr m ρ c 4).trans (ProjValue.final_qm (WholeRun.V0 m ρ) c)
  have hk : WholeRun.V1 m ρ c main_v0_1
      = Cert.AttnSpec.projArr (m ((c.tc : Thread nD τ).loc main_arg0)) (m ((c.tc : Thread nD τ).loc main_arg2)) :=
    (WholeRun.W1_arr m ρ c 5).trans (ProjValue.final_km (WholeRun.V0 m ρ) c)
  have hv : WholeRun.V1 m ρ c main_v0_2
      = Cert.AttnSpec.projArr (m ((c.tc : Thread nD τ).loc main_arg0)) (m ((c.tc : Thread nD τ).loc main_arg3)) :=
    (WholeRun.W1_arr m ρ c 6).trans (ProjValue.final_vm (WholeRun.V0 m ρ) c)
  rw [AttnValue.final_out, hq, hk, hv]
  exact Cert.AttnSpec.attend_proj _ _ _ _

end Cert.KernelIdeal.KernelValue

end
-- ==== Proof.lean ====
/-
  The certificate of one attention layer computed by two Pallas kernels against its jnp reference:
  softmax over the last axis of ((x·q)(x·k)ᵀ / √1024) (x·v), x : [4096, 1024], q, k, v : [1024, 1024].

  The kernel program is two regions. The first computes the three projections on blocks of 128 rows. The second
  walks an 8 × 8 grid of (512 query rows) × (512 key rows): a scratch block accumulates, over the eight key
  blocks, (Q_i K_jᵀ · 2⁻⁵) V_j, and at the last key block the row softmax of the scratch is stored. On the extended
  reals this is the reference's function: 2⁻⁵ is exactly 1/√1024, a quotient by 32 is the product with 1/32 on
  every extended real, and the sum over the 4096 keys taken in eight blocks is the same sum — no entry needs
  to be finite, so the precondition is never opened. The three frames: each kernel region is run once, at any
  float instance, and the whole program from it (modules ProjRegion, AttnRuns, AttnRegion, WholeRun, at the ideal
  and at the word-level instance); the reference's run is its operations in order. No operation was rewritten by
  the ideal pass, so the idealization is the program's own text read at the ideal instance.
-/
import proofs.«132627_j31696858644695_1_alg».proof.Defs
import proofs.«132627_j31696858644695_1_alg».proof.Proof.Gen.Kernel
import proofs.«132627_j31696858644695_1_alg».proof.Proof.Gen.KernelIdeal
import proofs.«132627_j31696858644695_1_alg».proof.Proof.Gen.ReferenceIdeal
import proofs.«132627_j31696858644695_1_alg».proof.Proof.Gen.ReferenceIdeal.Run
import proofs.«132627_j31696858644695_1_alg».proof.Proof.Gen.ReferenceIdeal.Read
import proofs.«132627_j31696858644695_1_alg».proof.Proof.Gen.Pre_finite_inputs
import proofs.«132627_j31696858644695_1_alg».proof.Proof.WholeRunI
import proofs.«132627_j31696858644695_1_alg».proof.Proof.WholeRunB
import proofs.«132627_j31696858644695_1_alg».proof.Proof.RefValue
import proofs.«132627_j31696858644695_1_alg».proof.Proof.KernelValue
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched. -/
theorem frame_kernel : Cert.frame_Kernel := fun m ρ _ =>
  (θ_run Cert.Kernel.defs _ _).mono (fun _ h c => (h c).2) (Cert.Kernel.WholeRun.run (F := Bits) m ρ)

/-- So does the idealized program. -/
theorem frame_kernelIdeal : Cert.frame_KernelIdeal := fun m ρ _ =>
  (θ_run Cert.KernelIdeal.defs _ _).mono (fun _ h c => (h c).2) (Cert.KernelIdeal.WholeRun.run (F := Ideal) m ρ)

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the four arguments both programs end with the specification's result of them. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.KernelValue.result_eq m ρ c), (h c).2⟩)
    (Cert.KernelIdeal.WholeRun.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.ref_result,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
